-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v95)) (v2 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_v88) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S10000 : Shape := ⟨1, ![10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S64x1 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x1 .f32 := Host.absf main_arg14
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S64x64 .f32) (main_arg11 : FVec F S64 .f32) (main_arg12 : FVec F S64x1 .f32) (main_arg13 : FVec F S1 .f32) (main_arg14 : FVec F S64x1 .f32) (main_arg15 : FVec F S1 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg12
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg14 main_arg15 main_v48 main_v49 main_v50

def fn_part1 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_arg14 : FVec F S64x1 .f32) (main_arg15 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : IVec S2x800000 32) (main_arg2 : IVec S10000 32) (main_arg3 : IVec S10000 32) (main_arg4 : FVec F S128x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_arg14 : FVec F S64x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S10000 : Shape := ⟨1, ![10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x128 : Shape := ⟨2, ![10000, 128]⟩
abbrev S10000x64 : Shape := ⟨2, ![10000, 64]⟩
abbrev S850000x64 : Shape := ⟨2, ![850000, 64]⟩
abbrev S1x64 : Shape := ⟨2, ![1, 64]⟩
abbrev S1x1 : Shape := ⟨2, ![1, 1]⟩
abbrev S50000x1 : Shape := ⟨2, ![50000, 1]⟩
abbrev S10000x1 : Shape := ⟨2, ![10000, 1]⟩

abbrev nBuf : Space → Nat
  | .hbm => 138
  | .vmem => 34
  | .smem => 0
  | _ => 0

abbrev hbmTy0_0 (i : Nat) : BufTy := match i % 128 with
  | 0 => ⟨S50000x128, .f32⟩
  | 1 => ⟨S2x800000, .i32⟩
  | 2 => ⟨S10000, .i32⟩
  | 3 => ⟨S10000, .i32⟩
  | 4 => ⟨S128x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x1, .f32⟩
  | 13 => ⟨S1, .f32⟩
  | 14 => ⟨S64x1, .f32⟩
  | 15 => ⟨S1, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .f32⟩
  | 32 => ⟨S50000x64, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x1, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x64, .f32⟩
  | 99 => ⟨S850000x1, .f32⟩
  | 100 => ⟨S850000x64, .f32⟩
  | 101 => ⟨S850000x64, .f32⟩
  | 102 => ⟨S_, .f32⟩
  | 103 => ⟨S50000x64, .f32⟩
  | 104 => ⟨S850000x1, .i32⟩
  | 105 => ⟨S50000x64, .f32⟩
  | 106 => ⟨S1x64, .f32⟩
  | 107 => ⟨S50000x64, .f32⟩
  | 108 => ⟨S1x64, .f32⟩
  | 109 => ⟨S1x64, .f32⟩
  | 110 => ⟨S1x1, .f32⟩
  | 111 => ⟨S1x1, .f32⟩
  | 112 => ⟨S50000x1, .f32⟩
  | 113 => ⟨S50000x1, .f32⟩
  | 114 => ⟨S50000, .f32⟩
  | 115 => ⟨S50000, .f32⟩
  | 116 => ⟨S_, .i32⟩
  | 117 => ⟨S10000, .i32⟩
  | 118 => ⟨S10000, .i1⟩
  | 119 => ⟨S_, .i32⟩
  | 120 => ⟨S10000, .i32⟩
  | 121 => ⟨S10000, .i32⟩
  | 122 => ⟨S10000, .i32⟩
  | 123 => ⟨S10000x1, .i32⟩
  | 124 => ⟨S10000, .f32⟩
  | 125 => ⟨S_, .i32⟩
  | 126 => ⟨S10000, .i32⟩
  | 127 => ⟨S10000, .i1⟩
  | _ => ⟨S50000x128, .f32⟩

abbrev hbmTy0_1 (i : Nat) : BufTy := match i % 128 with
  | 0 => ⟨S_, .i32⟩
  | 1 => ⟨S10000, .i32⟩
  | 2 => ⟨S10000, .i32⟩
  | 3 => ⟨S10000, .i32⟩
  | 4 => ⟨S10000x1, .i32⟩
  | 5 => ⟨S10000, .f32⟩
  | 6 => ⟨S_, .i32⟩
  | 7 => ⟨S10000, .i32⟩
  | 8 => ⟨S10000, .i1⟩
  | 9 => ⟨S10000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x1, .f32⟩
  | .local _ .vmem, ⟨27, _⟩ => ⟨S1x1, .f32⟩
  | .local _ .vmem, ⟨28, _⟩ => ⟨S64x1, .f32⟩
  | .local _ .vmem, ⟨29, _⟩ => ⟨S1x1, .f32⟩
  | .local _ .vmem, ⟨30, _⟩ => ⟨S10000x1, .f32⟩
  | .local _ .vmem, ⟨31, _⟩ => ⟨S10000x1, .f32⟩
  | .local _ .vmem, ⟨32, _⟩ => ⟨S10000x1, .f32⟩
  | .local _ .vmem, ⟨33, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79_0 : Ref sig .tc := ⟨.hbm, 112, rfl⟩
abbrev main_v79_1 : Ref sig .tc := ⟨.hbm, 113, rfl⟩
abbrev main_v80 : Ref sig .tc := ⟨.hbm, 114, rfl⟩
abbrev main_v81 : Ref sig .tc := ⟨.hbm, 115, rfl⟩
abbrev main_c_15 : Ref sig .tc := ⟨.hbm, 116, rfl⟩
abbrev main_v82 : Ref sig .tc := ⟨.hbm, 117, rfl⟩
abbrev main_v83 : Ref sig .tc := ⟨.hbm, 118, rfl⟩
abbrev main_c_16 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_17 : Ref sig .tc := ⟨.hbm, 125, rfl⟩
abbrev main_v89 : Ref sig .tc := ⟨.hbm, 126, rfl⟩
abbrev main_v90 : Ref sig .tc := ⟨.hbm, 127, rfl⟩
abbrev main_c_18 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg6_0 : Ref sig .tc := ⟨.vmem, 27, rfl⟩
abbrev cc4_stg7_0 : Ref sig .tc := ⟨.vmem, 28, rfl⟩
abbrev cc4_stg8_0 : Ref sig .tc := ⟨.vmem, 29, rfl⟩
abbrev cc4_stg9_0 : Ref sig .tc := ⟨.vmem, 30, rfl⟩
abbrev cc4_stg9_1 : Ref sig .tc := ⟨.vmem, 31, rfl⟩
abbrev cc4_stg10_0 : Ref sig .tc := ⟨.vmem, 32, rfl⟩
abbrev cc4_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem6_0 : DmaSem sig := 27
abbrev cc4_sem7_0 : DmaSem sig := 28
abbrev cc4_sem8_0 : DmaSem sig := 29
abbrev cc4_sem9_0 : DmaSem sig := 30
abbrev cc4_sem9_1 : DmaSem sig := 31
abbrev cc4_sem10_0 : DmaSem sig := 32
abbrev cc4_sem10_1 : DmaSem sig := 33

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S10000x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S10000x1 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S50000x1_S50000 : S50000x1.ShapeCasts S50000
  bcast_S_S10000 : S_.BroadcastsInDim S10000 (![] : Fin 0 → Fin S10000.rank)
  bcast_S10000_S10000x1_0 : S10000.BroadcastsInDim S10000x1 (![0] : Fin 1 → Fin S10000x1.rank)
  scatter_S50000_S850000x1_S850000_n_0_0_1_wf : ScatterDims.WF S50000 S850000x1 S850000 [] [0] [0] 1
  dot_S10000x128_S128x64_S10000x64_1_0_0_1_n_n_wf : DotDims.WF S10000x128 S128x64 S10000x64 [1] [0] [0] [1] [] []
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  gather_S50000_S10000x1_S10000_n_0_n_n_0_1_1_wf : GatherDims.WF S50000 S10000x1 S10000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x1.size a ≤ S64x1.size a
  hwx4_5 : ∀ i : grid4.Coords, EltTy.bits .f32 = 32 ∨ (Rect.block (s := S64x1) S64x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x1.size a ≤ S64x1.size a
  hwx4_7 : ∀ i : grid4.Coords, EltTy.bits .f32 = 32 ∨ (Rect.block (s := S64x1) S64x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S10000x1.size a ≤ S50000x1.size a
  hwx4_9 : ∀ i : grid4.Coords, EltTy.bits .f32 = 32 ∨ (Rect.block (s := S50000x1) S10000x1.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S10000x1.size a ≤ S50000x1.size a
  hwx4_10 : ∀ i : grid4.Coords, EltTy.bits .f32 = 32 ∨ (Rect.block (s := S50000x1) S10000x1.size (cc4_transform_10 i) (hinb4_10 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S50000_S10000x1_S10000_n_0_n_n_0_1_1 : GatherDims S50000 S10000x1 S10000 where
  offsetDims := []
  collapsedSliceDims := [0]
  operandBatchingDims := []
  startIndicesBatchingDims := []
  startIndexMap := [0]
  indexVectorDim := 1
  sliceSizes := ![1]
  wf := gather_S50000_S10000x1_S10000_n_0_n_n_0_1_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S64x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v77) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg14) S64x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v78) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v79_0) S10000x1.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v79_1) S10000x1.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S10000 : Shape := ⟨1, ![10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩
abbrev S10000x1 : Shape := ⟨2, ![10000, 1]⟩

abbrev nBuf : Space → Nat
  | .hbm => 178
  | .vmem => 0
  | .smem => 0
  | _ => 0

abbrev hbmTy0_0 (i : Nat) : BufTy := match i % 128 with
  | 0 => ⟨S50000x128, .f32⟩
  | 1 => ⟨S2x800000, .i32⟩
  | 2 => ⟨S10000, .i32⟩
  | 3 => ⟨S10000, .i32⟩
  | 4 => ⟨S128x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x1, .f32⟩
  | 13 => ⟨S1, .f32⟩
  | 14 => ⟨S64x1, .f32⟩
  | 15 => ⟨S1, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .f32⟩
  | 32 => ⟨S50000x64, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x1, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S850000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x64, .f32⟩
  | 103 => ⟨S850000x1, .f32⟩
  | 104 => ⟨S850000x64, .f32⟩
  | 105 => ⟨S850000x64, .f32⟩
  | 106 => ⟨S_, .f32⟩
  | 107 => ⟨S50000x64, .f32⟩
  | 108 => ⟨S850000x1, .i32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S50000x64, .f32⟩
  | 1 => ⟨S50000x64, .f32⟩
  | 2 => ⟨S50000x1, .f32⟩
  | 3 => ⟨S1x1, .f32⟩
  | 4 => ⟨S50000x1, .f32⟩
  | 5 => ⟨S50000x1, .f32⟩
  | 6 => ⟨S50000, .f32⟩
  | 7 => ⟨S50000, .f32⟩
  | 8 => ⟨S50000, .f32⟩
  | 9 => ⟨S_, .f32⟩
  | 10 => ⟨S50000, .f32⟩
  | 11 => ⟨S50000, .f32⟩
  | 12 => ⟨S_, .f32⟩
  | 13 => ⟨S50000, .f32⟩
  | 14 => ⟨S50000, .f32⟩
  | 15 => ⟨S50000x1, .f32⟩
  | 16 => ⟨S1x1, .f32⟩
  | 17 => ⟨S50000x1, .f32⟩
  | 18 => ⟨S50000x1, .f32⟩
  | 19 => ⟨S50000, .f32⟩
  | 20 => ⟨S50000, .f32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .i32⟩
  | 29 => ⟨S10000, .i32⟩
  | 30 => ⟨S10000, .i1⟩
  | 31 => ⟨S_, .i32⟩
  | 32 => ⟨S10000, .i32⟩
  | 33 => ⟨S10000, .i32⟩
  | 34 => ⟨S10000, .i32⟩
  | 35 => ⟨S10000x1, .i32⟩
  | 36 => ⟨S10000, .f32⟩
  | 37 => ⟨S_, .i32⟩
  | 38 => ⟨S10000, .i32⟩
  | 39 => ⟨S10000, .i1⟩
  | 40 => ⟨S_, .i32⟩
  | 41 => ⟨S10000, .i32⟩
  | 42 => ⟨S10000, .i32⟩
  | 43 => ⟨S10000, .i32⟩
  | 44 => ⟨S10000x1, .i32⟩
  | 45 => ⟨S10000, .f32⟩
  | 46 => ⟨S_, .i32⟩
  | 47 => ⟨S10000, .i32⟩
  | 48 => ⟨S10000, .i1⟩
  | 49 => ⟨S10000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call0_cst : Ref sig .tc := ⟨.hbm, 71, rfl⟩
abbrev main_call0_v0 : Ref sig .tc := ⟨.hbm, 72, rfl⟩
abbrev main_v45 : Ref sig .tc := ⟨.hbm, 73, rfl⟩
abbrev main_v46 : Ref sig .tc := ⟨.hbm, 74, rfl⟩
abbrev main_c_8 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_12 : Ref sig .tc := ⟨.hbm, 94, rfl⟩
abbrev main_v62 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call1_cst : Ref sig .tc := ⟨.hbm, 113, rfl⟩
abbrev main_call1_v0 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call2_cst : Ref sig .tc := ⟨.hbm, 120, rfl⟩
abbrev main_call2_v0 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call3_cst : Ref sig .tc := ⟨.hbm, 127, rfl⟩
abbrev main_call3_v0 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_15 : Ref sig .tc := ⟨.hbm, 137, rfl⟩
abbrev main_v96 : Ref sig .tc := ⟨.hbm, 138, rfl⟩
abbrev main_v97 : Ref sig .tc := ⟨.hbm, 139, rfl⟩
abbrev main_cst_16 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_17 : Ref sig .tc := ⟨.hbm, 150, rfl⟩
abbrev main_v107 : Ref sig .tc := ⟨.hbm, 151, rfl⟩
abbrev main_v108 : Ref sig .tc := ⟨.hbm, 152, rfl⟩
abbrev main_cst_18 : Ref sig .tc := ⟨.hbm, 153, rfl⟩
abbrev main_v109 : Ref sig .tc := ⟨.hbm, 154, rfl⟩
abbrev main_v110 : Ref sig .tc := ⟨.hbm, 155, rfl⟩
abbrev main_c_19 : Ref sig .tc := ⟨.hbm, 156, rfl⟩
abbrev main_v111 : Ref sig .tc := ⟨.hbm, 157, rfl⟩
abbrev main_v112 : Ref sig .tc := ⟨.hbm, 158, rfl⟩
abbrev main_c_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_21 : Ref sig .tc := ⟨.hbm, 165, rfl⟩
abbrev main_v118 : Ref sig .tc := ⟨.hbm, 166, rfl⟩
abbrev main_v119 : Ref sig .tc := ⟨.hbm, 167, rfl⟩
abbrev main_c_22 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_23 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S10000 : S_.BroadcastsInDim S10000 (![] : Fin 0 → Fin S10000.rank)
  bcast_S10000_S10000x1_0 : S10000.BroadcastsInDim S10000x1 (![0] : Fin 1 → Fin S10000x1.rank)
  scatter_S50000_S850000x1_S850000_n_0_0_1_wf : ScatterDims.WF S50000 S850000x1 S850000 [] [0] [0] 1
  dot_S50000x128_S128x64_S50000x64_1_0_0_1_n_n_wf : DotDims.WF S50000x128 S128x64 S50000x64 [1] [0] [0] [1] [] []
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  gather_S50000_S10000x1_S10000_n_0_n_n_0_1_1_wf : GatherDims.WF S50000 S10000x1 S10000 [] [0] [] [0] [] 1 ![1]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000_S10000x1_S10000_n_0_n_n_0_1_1 : GatherDims S50000 S10000x1 S10000 where
  offsetDims := []
  collapsedSliceDims := [0]
  operandBatchingDims := []
  startIndicesBatchingDims := []
  startIndexMap := [0]
  indexVectorDim := 1
  sliceSizes := ![1]
  wf := gather_S50000_S10000x1_S10000_n_0_n_n_0_1_1_wf

class Facts : Prop extends Facts₀ where

variable [Facts]
-- ==== Proof.KernelRun.lean ====
/-
  The idealized kernel's run with its three results named.

  The program is eleven segments: six stretches of host operations and five kernel regions. Each segment takes the
  TensorCore's buffers from one boundary's contents to the next, so after the last segment every buffer holds the
  last boundary's contents. Read at the three result buffers and at the sixteen arguments this says: every weakly
  fair execution terminates without a fault, each result holds what the fold of the segments leaves in it, and each
  argument holds what it was launched with.
-/
import proofs.«124152_j6511170421729_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with each result buffer at the
    last boundary's contents and each argument as launched. -/
theorem run_named : θ_run defs (onTc (τ := τ) (main (F := F))) ⟨m, fun _ => 0, ρ⟩ (fun r => ∀ c : Dev nD,
      r.2.mem ((c.tc : Thread nD τ).loc main_v98) = W11 m ρ c (Proc.devRef .tc main_v98)
      ∧ r.2.mem ((c.tc : Thread nD τ).loc main_v95) = W11 m ρ c (Proc.devRef .tc main_v95)
      ∧ r.2.mem ((c.tc : Thread nD τ).loc main_v88) = W11 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v98 (by decide)),
       h c _ (mem_uc main_v95 (by decide)),
       h c _ (mem_uc main_v88 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c)⟩)

end Cert.KernelIdeal.Named

end
-- ==== Proof.Bridge0.lean ====
/-
  The edge lists and the degree normalisation, on both sides.

  Both programs start with the same host operations on the edge index E : [2, 800000]: the source list is row 0 of E
  followed by 0 … 49999 (a self-loop per node), the target list row 1 followed by the same; the degree of a node is the
  number of times it occurs in the target list (a scatter-add of ones into zeros), and the normalisation is degree to
  the power -1/2. Operation by operation the kernel's stretch is the reference's, so after it the three buffers hold the
  reference's three stages of the same edge index; no later segment writes them, so they hold them at every boundary up
  to the last one that reads them.
-/
import proofs.«124152_j6511170421729_1_alg».proof.Proof.Gen.KernelIdeal.Frame
import proofs.«124152_j6511170421729_1_alg».proof.Proof.Gen.ReferenceIdeal.Read
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The source list: row 0 of the edge index, then the self-loops. -/
theorem src_at1 (c : Dev nD) : W1 (F := Ideal) m ρ c (Proc.devRef .tc main_v3) = Cert.ReferenceIdeal.Read.val_main_v3 (F := Ideal) (m ((c : Thread nD τ).loc main_arg1)) := by
  show StableHlo.after hostOps0 (W0 (F := Ideal) m ρ c) (Proc.devRef .tc main_v3) = _
  dsimp only [hostOps0]
  after_results_simp
  unfold Cert.ReferenceIdeal.Read.val_main_v3 Cert.ReferenceIdeal.Read.val_main_v2 Cert.ReferenceIdeal.Read.val_main_v1 Cert.ReferenceIdeal.Read.val_main_v0
  rfl

/-- The target list: row 1 of the edge index, then the self-loops. -/
theorem dst_at1 (c : Dev nD) : W1 (F := Ideal) m ρ c (Proc.devRef .tc main_v6) = Cert.ReferenceIdeal.Read.val_main_v6 (F := Ideal) (m ((c : Thread nD τ).loc main_arg1)) := by
  show StableHlo.after hostOps0 (W0 (F := Ideal) m ρ c) (Proc.devRef .tc main_v6) = _
  dsimp only [hostOps0]
  after_results_simp
  unfold Cert.ReferenceIdeal.Read.val_main_v6 Cert.ReferenceIdeal.Read.val_main_v5 Cert.ReferenceIdeal.Read.val_main_v4 Cert.ReferenceIdeal.Read.val_main_v0
  rfl

/-- The normalisation: (number of occurrences in the target list) ^ (-1/2). -/
theorem dinv_at1 (c : Dev nD) : W1 (F := Ideal) m ρ c (Proc.devRef .tc main_v12) = Cert.ReferenceIdeal.Read.val_main_v12 (F := Ideal) (m ((c : Thread nD τ).loc main_arg1)) := by
  show StableHlo.after hostOps0 (W0 (F := Ideal) m ρ c) (Proc.devRef .tc main_v12) = _
  dsimp only [hostOps0]
  after_results_simp
  unfold Cert.ReferenceIdeal.Read.val_main_v12 Cert.ReferenceIdeal.Read.val_main_v11 Cert.ReferenceIdeal.Read.val_main_cst_1 Cert.ReferenceIdeal.Read.val_main_v10 Cert.ReferenceIdeal.Read.val_main_v9 Cert.ReferenceIdeal.Read.val_main_v8 Cert.ReferenceIdeal.Read.val_main_cst_0 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v0
  rfl

theorem src_at2 (c : Dev nD) : W2 (F := Ideal) m ρ c (Proc.devRef .tc main_v3) = Cert.ReferenceIdeal.Read.val_main_v3 (F := Ideal) (m ((c : Thread nD τ).loc main_arg1)) :=
  (W2_of_ne m ρ c main_v3 (by decide)).trans (src_at1 m ρ c)

theorem src_at3 (c : Dev nD) : W3 (F := Ideal) m ρ c (Proc.devRef .tc main_v3) = Cert.ReferenceIdeal.Read.val_main_v3 (F := Ideal) (m ((c : Thread nD τ).loc main_arg1)) := by
  show StableHlo.after hostOps1 (W2 (F := Ideal) m ρ c) (Proc.devRef .tc main_v3) = _
  dsimp only [hostOps1]
  after_results_simp
  exact src_at2 m ρ c

theorem src_at4 (c : Dev nD) : W4 (F := Ideal) m ρ c (Proc.devRef .tc main_v3) = Cert.ReferenceIdeal.Read.val_main_v3 (F := Ideal) (m ((c : Thread nD τ).loc main_arg1)) :=
  (W4_of_ne m ρ c main_v3 (by decide)).trans (src_at3 m ρ c)

theorem src_at5 (c : Dev nD) : W5 (F := Ideal) m ρ c (Proc.devRef .tc main_v3) = Cert.ReferenceIdeal.Read.val_main_v3 (F := Ideal) (m ((c : Thread nD τ).loc main_arg1)) :=
  (W5_of_ne m ρ c main_v3 (by decide)).trans (src_at4 m ρ c)

theorem dst_at2 (c : Dev nD) : W2 (F := Ideal) m ρ c (Proc.devRef .tc main_v6) = Cert.ReferenceIdeal.Read.val_main_v6 (F := Ideal) (m ((c : Thread nD τ).loc main_arg1)) :=
  (W2_of_ne m ρ c main_v6 (by decide)).trans (dst_at1 m ρ c)

theorem dst_at3 (c : Dev nD) : W3 (F := Ideal) m ρ c (Proc.devRef .tc main_v6) = Cert.ReferenceIdeal.Read.val_main_v6 (F := Ideal) (m ((c : Thread nD τ).loc main_arg1)) := by
  show StableHlo.after hostOps1 (W2 (F := Ideal) m ρ c) (Proc.devRef .tc main_v6) = _
  dsimp only [hostOps1]
  after_results_simp
  exact dst_at2 m ρ c

theorem dst_at4 (c : Dev nD) : W4 (F := Ideal) m ρ c (Proc.devRef .tc main_v6) = Cert.ReferenceIdeal.Read.val_main_v6 (F := Ideal) (m ((c : Thread nD τ).loc main_arg1)) :=
  (W4_of_ne m ρ c main_v6 (by decide)).trans (dst_at3 m ρ c)

theorem dst_at5 (c : Dev nD) : W5 (F := Ideal) m ρ c (Proc.devRef .tc main_v6) = Cert.ReferenceIdeal.Read.val_main_v6 (F := Ideal) (m ((c : Thread nD τ).loc main_arg1)) :=
  (W5_of_ne m ρ c main_v6 (by decide)).trans (dst_at4 m ρ c)

theorem dinv_at2 (c : Dev nD) : W2 (F := Ideal) m ρ c (Proc.devRef .tc main_v12) = Cert.ReferenceIdeal.Read.val_main_v12 (F := Ideal) (m ((c : Thread nD τ).loc main_arg1)) :=
  (W2_of_ne m ρ c main_v12 (by decide)).trans (dinv_at1 m ρ c)

theorem dinv_at3 (c : Dev nD) : W3 (F := Ideal) m ρ c (Proc.devRef .tc main_v12) = Cert.ReferenceIdeal.Read.val_main_v12 (F := Ideal) (m ((c : Thread nD τ).loc main_arg1)) := by
  show StableHlo.after hostOps1 (W2 (F := Ideal) m ρ c) (Proc.devRef .tc main_v12) = _
  dsimp only [hostOps1]
  after_results_simp
  exact dinv_at2 m ρ c

theorem dinv_at4 (c : Dev nD) : W4 (F := Ideal) m ρ c (Proc.devRef .tc main_v12) = Cert.ReferenceIdeal.Read.val_main_v12 (F := Ideal) (m ((c : Thread nD τ).loc main_arg1)) :=
  (W4_of_ne m ρ c main_v12 (by decide)).trans (dinv_at3 m ρ c)

theorem dinv_at5 (c : Dev nD) : W5 (F := Ideal) m ρ c (Proc.devRef .tc main_v12) = Cert.ReferenceIdeal.Read.val_main_v12 (F := Ideal) (m ((c : Thread nD τ).loc main_arg1)) :=
  (W5_of_ne m ρ c main_v12 (by decide)).trans (dinv_at4 m ρ c)

end Cert.Bridge

end
-- ==== Proof.Carry.lean ====
/-
  The arguments through the segments.

  No host operation and no kernel region writes an argument buffer, so at every boundary between two segments an
  argument still holds what it was launched with. Stated per argument, up to the last boundary at which some later
  segment reads it.
-/
import proofs.«124152_j6511170421729_1_alg».proof.Proof.Gen.KernelIdeal.Frame
import Idealize.ShloMosaic.Lib.StableHlo.Run
import Idealize.ShloMosaic.PureOps.Ideal

set_option maxRecDepth 16384

noncomputable section

namespace Cert.KernelIdeal.Carry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem W1_arg0 (c : Dev nD) : W1 (F := Ideal) m ρ c (Proc.devRef .tc main_arg0) = m ((c : Thread nD τ).loc main_arg0) := by
  show StableHlo.after hostOps0 (W0 (F := Ideal) m ρ c) (Proc.devRef .tc main_arg0) = _
  dsimp only [hostOps0]
  after_results_simp
  try rfl

theorem W1_arg2 (c : Dev nD) : W1 (F := Ideal) m ρ c (Proc.devRef .tc main_arg2) = m ((c : Thread nD τ).loc main_arg2) := by
  show StableHlo.after hostOps0 (W0 (F := Ideal) m ρ c) (Proc.devRef .tc main_arg2) = _
  dsimp only [hostOps0]
  after_results_simp
  try rfl

theorem W2_arg2 (c : Dev nD) : W2 (F := Ideal) m ρ c (Proc.devRef .tc main_arg2) = m ((c : Thread nD τ).loc main_arg2) :=
  (W2_of_ne m ρ c main_arg2 (by decide)).trans (W1_arg2 m ρ c)

theorem W3_arg2 (c : Dev nD) : W3 (F := Ideal) m ρ c (Proc.devRef .tc main_arg2) = m ((c : Thread nD τ).loc main_arg2) := by
  show StableHlo.after hostOps1 (W2 (F := Ideal) m ρ c) (Proc.devRef .tc main_arg2) = _
  dsimp only [hostOps1]
  after_results_simp
  exact W2_arg2 m ρ c

theorem W4_arg2 (c : Dev nD) : W4 (F := Ideal) m ρ c (Proc.devRef .tc main_arg2) = m ((c : Thread nD τ).loc main_arg2) :=
  (W4_of_ne m ρ c main_arg2 (by decide)).trans (W3_arg2 m ρ c)

theorem W5_arg2 (c : Dev nD) : W5 (F := Ideal) m ρ c (Proc.devRef .tc main_arg2) = m ((c : Thread nD τ).loc main_arg2) :=
  (W5_of_ne m ρ c main_arg2 (by decide)).trans (W4_arg2 m ρ c)

theorem W6_arg2 (c : Dev nD) : W6 (F := Ideal) m ρ c (Proc.devRef .tc main_arg2) = m ((c : Thread nD τ).loc main_arg2) := by
  show StableHlo.after hostOps3 (W5 (F := Ideal) m ρ c) (Proc.devRef .tc main_arg2) = _
  dsimp only [hostOps3]
  after_results_simp
  exact W5_arg2 m ρ c

theorem W7_arg2 (c : Dev nD) : W7 (F := Ideal) m ρ c (Proc.devRef .tc main_arg2) = m ((c : Thread nD τ).loc main_arg2) :=
  (W7_of_ne m ρ c main_arg2 (by decide)).trans (W6_arg2 m ρ c)

theorem W8_arg2 (c : Dev nD) : W8 (F := Ideal) m ρ c (Proc.devRef .tc main_arg2) = m ((c : Thread nD τ).loc main_arg2) := by
  show StableHlo.after hostOps4 (W7 (F := Ideal) m ρ c) (Proc.devRef .tc main_arg2) = _
  dsimp only [hostOps4]
  after_results_simp
  exact W7_arg2 m ρ c

theorem W9_arg2 (c : Dev nD) : W9 (F := Ideal) m ρ c (Proc.devRef .tc main_arg2) = m ((c : Thread nD τ).loc main_arg2) :=
  (W9_of_ne m ρ c main_arg2 (by decide)).trans (W8_arg2 m ρ c)

theorem W1_arg3 (c : Dev nD) : W1 (F := Ideal) m ρ c (Proc.devRef .tc main_arg3) = m ((c : Thread nD τ).loc main_arg3) := by
  show StableHlo.after hostOps0 (W0 (F := Ideal) m ρ c) (Proc.devRef .tc main_arg3) = _
  dsimp only [hostOps0]
  after_results_simp
  try rfl

theorem W2_arg3 (c : Dev nD) : W2 (F := Ideal) m ρ c (Proc.devRef .tc main_arg3) = m ((c : Thread nD τ).loc main_arg3) :=
  (W2_of_ne m ρ c main_arg3 (by decide)).trans (W1_arg3 m ρ c)

theorem W3_arg3 (c : Dev nD) : W3 (F := Ideal) m ρ c (Proc.devRef .tc main_arg3) = m ((c : Thread nD τ).loc main_arg3) := by
  show StableHlo.after hostOps1 (W2 (F := Ideal) m ρ c) (Proc.devRef .tc main_arg3) = _
  dsimp only [hostOps1]
  after_results_simp
  exact W2_arg3 m ρ c

theorem W4_arg3 (c : Dev nD) : W4 (F := Ideal) m ρ c (Proc.devRef .tc main_arg3) = m ((c : Thread nD τ).loc main_arg3) :=
  (W4_of_ne m ρ c main_arg3 (by decide)).trans (W3_arg3 m ρ c)

theorem W5_arg3 (c : Dev nD) : W5 (F := Ideal) m ρ c (Proc.devRef .tc main_arg3) = m ((c : Thread nD τ).loc main_arg3) :=
  (W5_of_ne m ρ c main_arg3 (by decide)).trans (W4_arg3 m ρ c)

theorem W6_arg3 (c : Dev nD) : W6 (F := Ideal) m ρ c (Proc.devRef .tc main_arg3) = m ((c : Thread nD τ).loc main_arg3) := by
  show StableHlo.after hostOps3 (W5 (F := Ideal) m ρ c) (Proc.devRef .tc main_arg3) = _
  dsimp only [hostOps3]
  after_results_simp
  exact W5_arg3 m ρ c

theorem W7_arg3 (c : Dev nD) : W7 (F := Ideal) m ρ c (Proc.devRef .tc main_arg3) = m ((c : Thread nD τ).loc main_arg3) :=
  (W7_of_ne m ρ c main_arg3 (by decide)).trans (W6_arg3 m ρ c)

theorem W8_arg3 (c : Dev nD) : W8 (F := Ideal) m ρ c (Proc.devRef .tc main_arg3) = m ((c : Thread nD τ).loc main_arg3) := by
  show StableHlo.after hostOps4 (W7 (F := Ideal) m ρ c) (Proc.devRef .tc main_arg3) = _
  dsimp only [hostOps4]
  after_results_simp
  exact W7_arg3 m ρ c

theorem W9_arg3 (c : Dev nD) : W9 (F := Ideal) m ρ c (Proc.devRef .tc main_arg3) = m ((c : Thread nD τ).loc main_arg3) :=
  (W9_of_ne m ρ c main_arg3 (by decide)).trans (W8_arg3 m ρ c)

theorem W1_arg4 (c : Dev nD) : W1 (F := Ideal) m ρ c (Proc.devRef .tc main_arg4) = m ((c : Thread nD τ).loc main_arg4) := by
  show StableHlo.after hostOps0 (W0 (F := Ideal) m ρ c) (Proc.devRef .tc main_arg4) = _
  dsimp only [hostOps0]
  after_results_simp
  try rfl

theorem W1_arg5 (c : Dev nD) : W1 (F := Ideal) m ρ c (Proc.devRef .tc main_arg5) = m ((c : Thread nD τ).loc main_arg5) := by
  show StableHlo.after hostOps0 (W0 (F := Ideal) m ρ c) (Proc.devRef .tc main_arg5) = _
  dsimp only [hostOps0]
  after_results_simp
  try rfl

theorem W2_arg5 (c : Dev nD) : W2 (F := Ideal) m ρ c (Proc.devRef .tc main_arg5) = m ((c : Thread nD τ).loc main_arg5) :=
  (W2_of_ne m ρ c main_arg5 (by decide)).trans (W1_arg5 m ρ c)

theorem W1_arg6 (c : Dev nD) : W1 (F := Ideal) m ρ c (Proc.devRef .tc main_arg6) = m ((c : Thread nD τ).loc main_arg6) := by
  show StableHlo.after hostOps0 (W0 (F := Ideal) m ρ c) (Proc.devRef .tc main_arg6) = _
  dsimp only [hostOps0]
  after_results_simp
  try rfl

theorem W2_arg6 (c : Dev nD) : W2 (F := Ideal) m ρ c (Proc.devRef .tc main_arg6) = m ((c : Thread nD τ).loc main_arg6) :=
  (W2_of_ne m ρ c main_arg6 (by decide)).trans (W1_arg6 m ρ c)

theorem W3_arg6 (c : Dev nD) : W3 (F := Ideal) m ρ c (Proc.devRef .tc main_arg6) = m ((c : Thread nD τ).loc main_arg6) := by
  show StableHlo.after hostOps1 (W2 (F := Ideal) m ρ c) (Proc.devRef .tc main_arg6) = _
  dsimp only [hostOps1]
  after_results_simp
  exact W2_arg6 m ρ c

theorem W4_arg6 (c : Dev nD) : W4 (F := Ideal) m ρ c (Proc.devRef .tc main_arg6) = m ((c : Thread nD τ).loc main_arg6) :=
  (W4_of_ne m ρ c main_arg6 (by decide)).trans (W3_arg6 m ρ c)

theorem W1_arg7 (c : Dev nD) : W1 (F := Ideal) m ρ c (Proc.devRef .tc main_arg7) = m ((c : Thread nD τ).loc main_arg7) := by
  show StableHlo.after hostOps0 (W0 (F := Ideal) m ρ c) (Proc.devRef .tc main_arg7) = _
  dsimp only [hostOps0]
  after_results_simp
  try rfl

theorem W2_arg7 (c : Dev nD) : W2 (F := Ideal) m ρ c (Proc.devRef .tc main_arg7) = m ((c : Thread nD τ).loc main_arg7) :=
  (W2_of_ne m ρ c main_arg7 (by decide)).trans (W1_arg7 m ρ c)

theorem W3_arg7 (c : Dev nD) : W3 (F := Ideal) m ρ c (Proc.devRef .tc main_arg7) = m ((c : Thread nD τ).loc main_arg7) := by
  show StableHlo.after hostOps1 (W2 (F := Ideal) m ρ c) (Proc.devRef .tc main_arg7) = _
  dsimp only [hostOps1]
  after_results_simp
  exact W2_arg7 m ρ c

theorem W4_arg7 (c : Dev nD) : W4 (F := Ideal) m ρ c (Proc.devRef .tc main_arg7) = m ((c : Thread nD τ).loc main_arg7) :=
  (W4_of_ne m ρ c main_arg7 (by decide)).trans (W3_arg7 m ρ c)

theorem W5_arg7 (c : Dev nD) : W5 (F := Ideal) m ρ c (Proc.devRef .tc main_arg7) = m ((c : Thread nD τ).loc main_arg7) :=
  (W5_of_ne m ρ c main_arg7 (by decide)).trans (W4_arg7 m ρ c)

theorem W1_arg8 (c : Dev nD) : W1 (F := Ideal) m ρ c (Proc.devRef .tc main_arg8) = m ((c : Thread nD τ).loc main_arg8) := by
  show StableHlo.after hostOps0 (W0 (F := Ideal) m ρ c) (Proc.devRef .tc main_arg8) = _
  dsimp only [hostOps0]
  after_results_simp
  try rfl

theorem W2_arg8 (c : Dev nD) : W2 (F := Ideal) m ρ c (Proc.devRef .tc main_arg8) = m ((c : Thread nD τ).loc main_arg8) :=
  (W2_of_ne m ρ c main_arg8 (by decide)).trans (W1_arg8 m ρ c)

theorem W3_arg8 (c : Dev nD) : W3 (F := Ideal) m ρ c (Proc.devRef .tc main_arg8) = m ((c : Thread nD τ).loc main_arg8) := by
  show StableHlo.after hostOps1 (W2 (F := Ideal) m ρ c) (Proc.devRef .tc main_arg8) = _
  dsimp only [hostOps1]
  after_results_simp
  exact W2_arg8 m ρ c

theorem W4_arg8 (c : Dev nD) : W4 (F := Ideal) m ρ c (Proc.devRef .tc main_arg8) = m ((c : Thread nD τ).loc main_arg8) :=
  (W4_of_ne m ρ c main_arg8 (by decide)).trans (W3_arg8 m ρ c)

theorem W5_arg8 (c : Dev nD) : W5 (F := Ideal) m ρ c (Proc.devRef .tc main_arg8) = m ((c : Thread nD τ).loc main_arg8) :=
  (W5_of_ne m ρ c main_arg8 (by decide)).trans (W4_arg8 m ρ c)

theorem W6_arg8 (c : Dev nD) : W6 (F := Ideal) m ρ c (Proc.devRef .tc main_arg8) = m ((c : Thread nD τ).loc main_arg8) := by
  show StableHlo.after hostOps3 (W5 (F := Ideal) m ρ c) (Proc.devRef .tc main_arg8) = _
  dsimp only [hostOps3]
  after_results_simp
  exact W5_arg8 m ρ c

theorem W7_arg8 (c : Dev nD) : W7 (F := Ideal) m ρ c (Proc.devRef .tc main_arg8) = m ((c : Thread nD τ).loc main_arg8) :=
  (W7_of_ne m ρ c main_arg8 (by decide)).trans (W6_arg8 m ρ c)

theorem W8_arg8 (c : Dev nD) : W8 (F := Ideal) m ρ c (Proc.devRef .tc main_arg8) = m ((c : Thread nD τ).loc main_arg8) := by
  show StableHlo.after hostOps4 (W7 (F := Ideal) m ρ c) (Proc.devRef .tc main_arg8) = _
  dsimp only [hostOps4]
  after_results_simp
  exact W7_arg8 m ρ c

theorem W1_arg9 (c : Dev nD) : W1 (F := Ideal) m ρ c (Proc.devRef .tc main_arg9) = m ((c : Thread nD τ).loc main_arg9) := by
  show StableHlo.after hostOps0 (W0 (F := Ideal) m ρ c) (Proc.devRef .tc main_arg9) = _
  dsimp only [hostOps0]
  after_results_simp
  try rfl

theorem W2_arg9 (c : Dev nD) : W2 (F := Ideal) m ρ c (Proc.devRef .tc main_arg9) = m ((c : Thread nD τ).loc main_arg9) :=
  (W2_of_ne m ρ c main_arg9 (by decide)).trans (W1_arg9 m ρ c)

theorem W3_arg9 (c : Dev nD) : W3 (F := Ideal) m ρ c (Proc.devRef .tc main_arg9) = m ((c : Thread nD τ).loc main_arg9) := by
  show StableHlo.after hostOps1 (W2 (F := Ideal) m ρ c) (Proc.devRef .tc main_arg9) = _
  dsimp only [hostOps1]
  after_results_simp
  exact W2_arg9 m ρ c

theorem W4_arg9 (c : Dev nD) : W4 (F := Ideal) m ρ c (Proc.devRef .tc main_arg9) = m ((c : Thread nD τ).loc main_arg9) :=
  (W4_of_ne m ρ c main_arg9 (by decide)).trans (W3_arg9 m ρ c)

theorem W5_arg9 (c : Dev nD) : W5 (F := Ideal) m ρ c (Proc.devRef .tc main_arg9) = m ((c : Thread nD τ).loc main_arg9) :=
  (W5_of_ne m ρ c main_arg9 (by decide)).trans (W4_arg9 m ρ c)

theorem W6_arg9 (c : Dev nD) : W6 (F := Ideal) m ρ c (Proc.devRef .tc main_arg9) = m ((c : Thread nD τ).loc main_arg9) := by
  show StableHlo.after hostOps3 (W5 (F := Ideal) m ρ c) (Proc.devRef .tc main_arg9) = _
  dsimp only [hostOps3]
  after_results_simp
  exact W5_arg9 m ρ c

theorem W7_arg9 (c : Dev nD) : W7 (F := Ideal) m ρ c (Proc.devRef .tc main_arg9) = m ((c : Thread nD τ).loc main_arg9) :=
  (W7_of_ne m ρ c main_arg9 (by decide)).trans (W6_arg9 m ρ c)

theorem W1_arg10 (c : Dev nD) : W1 (F := Ideal) m ρ c (Proc.devRef .tc main_arg10) = m ((c : Thread nD τ).loc main_arg10) := by
  show StableHlo.after hostOps0 (W0 (F := Ideal) m ρ c) (Proc.devRef .tc main_arg10) = _
  dsimp only [hostOps0]
  after_results_simp
  try rfl

theorem W2_arg10 (c : Dev nD) : W2 (F := Ideal) m ρ c (Proc.devRef .tc main_arg10) = m ((c : Thread nD τ).loc main_arg10) :=
  (W2_of_ne m ρ c main_arg10 (by decide)).trans (W1_arg10 m ρ c)

theorem W3_arg10 (c : Dev nD) : W3 (F := Ideal) m ρ c (Proc.devRef .tc main_arg10) = m ((c : Thread nD τ).loc main_arg10) := by
  show StableHlo.after hostOps1 (W2 (F := Ideal) m ρ c) (Proc.devRef .tc main_arg10) = _
  dsimp only [hostOps1]
  after_results_simp
  exact W2_arg10 m ρ c

theorem W4_arg10 (c : Dev nD) : W4 (F := Ideal) m ρ c (Proc.devRef .tc main_arg10) = m ((c : Thread nD τ).loc main_arg10) :=
  (W4_of_ne m ρ c main_arg10 (by decide)).trans (W3_arg10 m ρ c)

theorem W5_arg10 (c : Dev nD) : W5 (F := Ideal) m ρ c (Proc.devRef .tc main_arg10) = m ((c : Thread nD τ).loc main_arg10) :=
  (W5_of_ne m ρ c main_arg10 (by decide)).trans (W4_arg10 m ρ c)

theorem W6_arg10 (c : Dev nD) : W6 (F := Ideal) m ρ c (Proc.devRef .tc main_arg10) = m ((c : Thread nD τ).loc main_arg10) := by
  show StableHlo.after hostOps3 (W5 (F := Ideal) m ρ c) (Proc.devRef .tc main_arg10) = _
  dsimp only [hostOps3]
  after_results_simp
  exact W5_arg10 m ρ c

theorem W7_arg10 (c : Dev nD) : W7 (F := Ideal) m ρ c (Proc.devRef .tc main_arg10) = m ((c : Thread nD τ).loc main_arg10) :=
  (W7_of_ne m ρ c main_arg10 (by decide)).trans (W6_arg10 m ρ c)

theorem W8_arg10 (c : Dev nD) : W8 (F := Ideal) m ρ c (Proc.devRef .tc main_arg10) = m ((c : Thread nD τ).loc main_arg10) := by
  show StableHlo.after hostOps4 (W7 (F := Ideal) m ρ c) (Proc.devRef .tc main_arg10) = _
  dsimp only [hostOps4]
  after_results_simp
  exact W7_arg10 m ρ c

theorem W1_arg11 (c : Dev nD) : W1 (F := Ideal) m ρ c (Proc.devRef .tc main_arg11) = m ((c : Thread nD τ).loc main_arg11) := by
  show StableHlo.after hostOps0 (W0 (F := Ideal) m ρ c) (Proc.devRef .tc main_arg11) = _
  dsimp only [hostOps0]
  after_results_simp
  try rfl

theorem W2_arg11 (c : Dev nD) : W2 (F := Ideal) m ρ c (Proc.devRef .tc main_arg11) = m ((c : Thread nD τ).loc main_arg11) :=
  (W2_of_ne m ρ c main_arg11 (by decide)).trans (W1_arg11 m ρ c)

theorem W3_arg11 (c : Dev nD) : W3 (F := Ideal) m ρ c (Proc.devRef .tc main_arg11) = m ((c : Thread nD τ).loc main_arg11) := by
  show StableHlo.after hostOps1 (W2 (F := Ideal) m ρ c) (Proc.devRef .tc main_arg11) = _
  dsimp only [hostOps1]
  after_results_simp
  exact W2_arg11 m ρ c

theorem W4_arg11 (c : Dev nD) : W4 (F := Ideal) m ρ c (Proc.devRef .tc main_arg11) = m ((c : Thread nD τ).loc main_arg11) :=
  (W4_of_ne m ρ c main_arg11 (by decide)).trans (W3_arg11 m ρ c)

theorem W5_arg11 (c : Dev nD) : W5 (F := Ideal) m ρ c (Proc.devRef .tc main_arg11) = m ((c : Thread nD τ).loc main_arg11) :=
  (W5_of_ne m ρ c main_arg11 (by decide)).trans (W4_arg11 m ρ c)

theorem W6_arg11 (c : Dev nD) : W6 (F := Ideal) m ρ c (Proc.devRef .tc main_arg11) = m ((c : Thread nD τ).loc main_arg11) := by
  show StableHlo.after hostOps3 (W5 (F := Ideal) m ρ c) (Proc.devRef .tc main_arg11) = _
  dsimp only [hostOps3]
  after_results_simp
  exact W5_arg11 m ρ c

theorem W7_arg11 (c : Dev nD) : W7 (F := Ideal) m ρ c (Proc.devRef .tc main_arg11) = m ((c : Thread nD τ).loc main_arg11) :=
  (W7_of_ne m ρ c main_arg11 (by decide)).trans (W6_arg11 m ρ c)

theorem W1_arg12 (c : Dev nD) : W1 (F := Ideal) m ρ c (Proc.devRef .tc main_arg12) = m ((c : Thread nD τ).loc main_arg12) := by
  show StableHlo.after hostOps0 (W0 (F := Ideal) m ρ c) (Proc.devRef .tc main_arg12) = _
  dsimp only [hostOps0]
  after_results_simp
  try rfl

theorem W2_arg12 (c : Dev nD) : W2 (F := Ideal) m ρ c (Proc.devRef .tc main_arg12) = m ((c : Thread nD τ).loc main_arg12) :=
  (W2_of_ne m ρ c main_arg12 (by decide)).trans (W1_arg12 m ρ c)

theorem W3_arg12 (c : Dev nD) : W3 (F := Ideal) m ρ c (Proc.devRef .tc main_arg12) = m ((c : Thread nD τ).loc main_arg12) := by
  show StableHlo.after hostOps1 (W2 (F := Ideal) m ρ c) (Proc.devRef .tc main_arg12) = _
  dsimp only [hostOps1]
  after_results_simp
  exact W2_arg12 m ρ c

theorem W4_arg12 (c : Dev nD) : W4 (F := Ideal) m ρ c (Proc.devRef .tc main_arg12) = m ((c : Thread nD τ).loc main_arg12) :=
  (W4_of_ne m ρ c main_arg12 (by decide)).trans (W3_arg12 m ρ c)

theorem W5_arg12 (c : Dev nD) : W5 (F := Ideal) m ρ c (Proc.devRef .tc main_arg12) = m ((c : Thread nD τ).loc main_arg12) :=
  (W5_of_ne m ρ c main_arg12 (by decide)).trans (W4_arg12 m ρ c)

theorem W6_arg12 (c : Dev nD) : W6 (F := Ideal) m ρ c (Proc.devRef .tc main_arg12) = m ((c : Thread nD τ).loc main_arg12) := by
  show StableHlo.after hostOps3 (W5 (F := Ideal) m ρ c) (Proc.devRef .tc main_arg12) = _
  dsimp only [hostOps3]
  after_results_simp
  exact W5_arg12 m ρ c

theorem W7_arg12 (c : Dev nD) : W7 (F := Ideal) m ρ c (Proc.devRef .tc main_arg12) = m ((c : Thread nD τ).loc main_arg12) :=
  (W7_of_ne m ρ c main_arg12 (by decide)).trans (W6_arg12 m ρ c)

theorem W8_arg12 (c : Dev nD) : W8 (F := Ideal) m ρ c (Proc.devRef .tc main_arg12) = m ((c : Thread nD τ).loc main_arg12) := by
  show StableHlo.after hostOps4 (W7 (F := Ideal) m ρ c) (Proc.devRef .tc main_arg12) = _
  dsimp only [hostOps4]
  after_results_simp
  exact W7_arg12 m ρ c

theorem W1_arg13 (c : Dev nD) : W1 (F := Ideal) m ρ c (Proc.devRef .tc main_arg13) = m ((c : Thread nD τ).loc main_arg13) := by
  show StableHlo.after hostOps0 (W0 (F := Ideal) m ρ c) (Proc.devRef .tc main_arg13) = _
  dsimp only [hostOps0]
  after_results_simp
  try rfl

theorem W2_arg13 (c : Dev nD) : W2 (F := Ideal) m ρ c (Proc.devRef .tc main_arg13) = m ((c : Thread nD τ).loc main_arg13) :=
  (W2_of_ne m ρ c main_arg13 (by decide)).trans (W1_arg13 m ρ c)

theorem W3_arg13 (c : Dev nD) : W3 (F := Ideal) m ρ c (Proc.devRef .tc main_arg13) = m ((c : Thread nD τ).loc main_arg13) := by
  show StableHlo.after hostOps1 (W2 (F := Ideal) m ρ c) (Proc.devRef .tc main_arg13) = _
  dsimp only [hostOps1]
  after_results_simp
  exact W2_arg13 m ρ c

theorem W4_arg13 (c : Dev nD) : W4 (F := Ideal) m ρ c (Proc.devRef .tc main_arg13) = m ((c : Thread nD τ).loc main_arg13) :=
  (W4_of_ne m ρ c main_arg13 (by decide)).trans (W3_arg13 m ρ c)

theorem W5_arg13 (c : Dev nD) : W5 (F := Ideal) m ρ c (Proc.devRef .tc main_arg13) = m ((c : Thread nD τ).loc main_arg13) :=
  (W5_of_ne m ρ c main_arg13 (by decide)).trans (W4_arg13 m ρ c)

theorem W6_arg13 (c : Dev nD) : W6 (F := Ideal) m ρ c (Proc.devRef .tc main_arg13) = m ((c : Thread nD τ).loc main_arg13) := by
  show StableHlo.after hostOps3 (W5 (F := Ideal) m ρ c) (Proc.devRef .tc main_arg13) = _
  dsimp only [hostOps3]
  after_results_simp
  exact W5_arg13 m ρ c

theorem W7_arg13 (c : Dev nD) : W7 (F := Ideal) m ρ c (Proc.devRef .tc main_arg13) = m ((c : Thread nD τ).loc main_arg13) :=
  (W7_of_ne m ρ c main_arg13 (by decide)).trans (W6_arg13 m ρ c)

theorem W1_arg14 (c : Dev nD) : W1 (F := Ideal) m ρ c (Proc.devRef .tc main_arg14) = m ((c : Thread nD τ).loc main_arg14) := by
  show StableHlo.after hostOps0 (W0 (F := Ideal) m ρ c) (Proc.devRef .tc main_arg14) = _
  dsimp only [hostOps0]
  after_results_simp
  try rfl

theorem W2_arg14 (c : Dev nD) : W2 (F := Ideal) m ρ c (Proc.devRef .tc main_arg14) = m ((c : Thread nD τ).loc main_arg14) :=
  (W2_of_ne m ρ c main_arg14 (by decide)).trans (W1_arg14 m ρ c)

theorem W3_arg14 (c : Dev nD) : W3 (F := Ideal) m ρ c (Proc.devRef .tc main_arg14) = m ((c : Thread nD τ).loc main_arg14) := by
  show StableHlo.after hostOps1 (W2 (F := Ideal) m ρ c) (Proc.devRef .tc main_arg14) = _
  dsimp only [hostOps1]
  after_results_simp
  exact W2_arg14 m ρ c

theorem W4_arg14 (c : Dev nD) : W4 (F := Ideal) m ρ c (Proc.devRef .tc main_arg14) = m ((c : Thread nD τ).loc main_arg14) :=
  (W4_of_ne m ρ c main_arg14 (by decide)).trans (W3_arg14 m ρ c)

theorem W5_arg14 (c : Dev nD) : W5 (F := Ideal) m ρ c (Proc.devRef .tc main_arg14) = m ((c : Thread nD τ).loc main_arg14) :=
  (W5_of_ne m ρ c main_arg14 (by decide)).trans (W4_arg14 m ρ c)

theorem W6_arg14 (c : Dev nD) : W6 (F := Ideal) m ρ c (Proc.devRef .tc main_arg14) = m ((c : Thread nD τ).loc main_arg14) := by
  show StableHlo.after hostOps3 (W5 (F := Ideal) m ρ c) (Proc.devRef .tc main_arg14) = _
  dsimp only [hostOps3]
  after_results_simp
  exact W5_arg14 m ρ c

theorem W7_arg14 (c : Dev nD) : W7 (F := Ideal) m ρ c (Proc.devRef .tc main_arg14) = m ((c : Thread nD τ).loc main_arg14) :=
  (W7_of_ne m ρ c main_arg14 (by decide)).trans (W6_arg14 m ρ c)

theorem W8_arg14 (c : Dev nD) : W8 (F := Ideal) m ρ c (Proc.devRef .tc main_arg14) = m ((c : Thread nD τ).loc main_arg14) := by
  show StableHlo.after hostOps4 (W7 (F := Ideal) m ρ c) (Proc.devRef .tc main_arg14) = _
  dsimp only [hostOps4]
  after_results_simp
  exact W7_arg14 m ρ c

theorem W1_arg15 (c : Dev nD) : W1 (F := Ideal) m ρ c (Proc.devRef .tc main_arg15) = m ((c : Thread nD τ).loc main_arg15) := by
  show StableHlo.after hostOps0 (W0 (F := Ideal) m ρ c) (Proc.devRef .tc main_arg15) = _
  dsimp only [hostOps0]
  after_results_simp
  try rfl

theorem W2_arg15 (c : Dev nD) : W2 (F := Ideal) m ρ c (Proc.devRef .tc main_arg15) = m ((c : Thread nD τ).loc main_arg15) :=
  (W2_of_ne m ρ c main_arg15 (by decide)).trans (W1_arg15 m ρ c)

theorem W3_arg15 (c : Dev nD) : W3 (F := Ideal) m ρ c (Proc.devRef .tc main_arg15) = m ((c : Thread nD τ).loc main_arg15) := by
  show StableHlo.after hostOps1 (W2 (F := Ideal) m ρ c) (Proc.devRef .tc main_arg15) = _
  dsimp only [hostOps1]
  after_results_simp
  exact W2_arg15 m ρ c

theorem W4_arg15 (c : Dev nD) : W4 (F := Ideal) m ρ c (Proc.devRef .tc main_arg15) = m ((c : Thread nD τ).loc main_arg15) :=
  (W4_of_ne m ρ c main_arg15 (by decide)).trans (W3_arg15 m ρ c)

theorem W5_arg15 (c : Dev nD) : W5 (F := Ideal) m ρ c (Proc.devRef .tc main_arg15) = m ((c : Thread nD τ).loc main_arg15) :=
  (W5_of_ne m ρ c main_arg15 (by decide)).trans (W4_arg15 m ρ c)

theorem W6_arg15 (c : Dev nD) : W6 (F := Ideal) m ρ c (Proc.devRef .tc main_arg15) = m ((c : Thread nD τ).loc main_arg15) := by
  show StableHlo.after hostOps3 (W5 (F := Ideal) m ρ c) (Proc.devRef .tc main_arg15) = _
  dsimp only [hostOps3]
  after_results_simp
  exact W5_arg15 m ρ c

theorem W7_arg15 (c : Dev nD) : W7 (F := Ideal) m ρ c (Proc.devRef .tc main_arg15) = m ((c : Thread nD τ).loc main_arg15) :=
  (W7_of_ne m ρ c main_arg15 (by decide)).trans (W6_arg15 m ρ c)

end Cert.KernelIdeal.Carry

end
-- ==== Proof.LibMatmul.lean ====
/-
  A plain matrix product read at an index, over the extended reals.

  For l : [A, K] and r : [K, B], contracted over the one shared axis with no batch axes, entry (a, b) of the
  product is the sum over k of l(a, k) · r(k, b) — for the host's dot product and for the kernel's matrix
  product into a zero accumulator alike. Generic in A, K, B.
-/
import Idealize.ShloMosaic.Lib.ValueIdx
import Idealize.ShloMosaic.PureOps.Ideal.Laws

noncomputable section

open scoped BigOperators

namespace Idealize.ShloMosaic.MatmulIdx

open Idealize.ShloMosaic Idealize.ShloMosaic.ValueIdx

/-- The dimension numbers of l @ r for l : [A, K], r : [K, B]: contract axis 1 of l with axis 0 of r. -/
abbrev mmDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

theorem lhs_row (j : (⟨2, ![A, B]⟩ : Shape).Idx) (q : (mmDims A K B wf).contr.Idx) :
    ((mmDims A K B wf).lhsIdx j q 0).val = (j 0).val := by
  unfold DotDims.lhsIdx
  rw [dif_neg (show ¬(0 : Fin (⟨2, ![A, K]⟩ : Shape).rank) ∈ (mmDims A K B wf).lhsBatch from List.not_mem_nil),
    dif_pos (show (0 : Fin (⟨2, ![A, K]⟩ : Shape).rank) ∈ (mmDims A K B wf).lhsNonContracting from List.mem_singleton.mpr rfl)]
  rfl

theorem lhs_contr (j : (⟨2, ![A, B]⟩ : Shape).Idx) (q : (mmDims A K B wf).contr.Idx) :
    ((mmDims A K B wf).lhsIdx j q 1).val = (q ⟨0, (Nat.zero_lt_one : 0 < (mmDims A K B wf).contr.rank)⟩).val :=
  (mmDims A K B wf).lhsIdx_val_of_single rfl j q

theorem rhs_contr (j : (⟨2, ![A, B]⟩ : Shape).Idx) (q : (mmDims A K B wf).contr.Idx) :
    ((mmDims A K B wf).rhsIdx j q 0).val = (q ⟨0, (Nat.zero_lt_one : 0 < (mmDims A K B wf).contr.rank)⟩).val :=
  (mmDims A K B wf).rhsIdx_val_of_single rfl j q

theorem rhs_col (j : (⟨2, ![A, B]⟩ : Shape).Idx) (q : (mmDims A K B wf).contr.Idx) :
    ((mmDims A K B wf).rhsIdx j q 1).val = (j 1).val := by
  unfold DotDims.rhsIdx
  rw [dif_neg (show ¬(1 : Fin (⟨2, ![K, B]⟩ : Shape).rank) ∈ (mmDims A K B wf).rhsBatch from List.not_mem_nil),
    dif_pos (show (1 : Fin (⟨2, ![K, B]⟩ : Shape).rank) ∈ (mmDims A K B wf).rhsNonContracting from List.mem_singleton.mpr rfl)]
  rfl

/-- The contraction's index set is the K positions of the shared axis: the sum over it is the sum over k. -/
theorem contr_sum (l : (⟨2, ![A, K]⟩ : Shape).Idx → EReal) (r : (⟨2, ![K, B]⟩ : Shape).Idx → EReal) (a : Fin A) (b : Fin B) :
    ∑ q : (mmDims A K B wf).contr.Idx, l ((mmDims A K B wf).lhsIdx (ix2 a b) q) * r ((mmDims A K B wf).rhsIdx (ix2 a b) q)
      = ∑ k : Fin K, l (ix2 a k) * r (ix2 k b) := by
  rw [← Equiv.sum_comp (contrEquiv1 (mmDims A K B wf) K rfl rfl).symm]
  refine Finset.sum_congr rfl fun k _ => ?_
  have hk := contrEquiv1_symm_val (mmDims A K B wf) K rfl rfl k
  have el : (mmDims A K B wf).lhsIdx (ix2 a b) ((contrEquiv1 (mmDims A K B wf) K rfl rfl).symm k) = ix2 a k :=
    funext fun x => Fin.ext (by
      match x with
      | ⟨0, _⟩ => exact lhs_row wf _ _
      | ⟨1, _⟩ => exact (lhs_contr wf _ _).trans hk)
  have er : (mmDims A K B wf).rhsIdx (ix2 a b) ((contrEquiv1 (mmDims A K B wf) K rfl rfl).symm k) = ix2 k b :=
    funext fun x => Fin.ext (by
      match x with
      | ⟨0, _⟩ => exact (rhs_contr wf _ _).trans hk
      | ⟨1, _⟩ => exact rhs_col wf _ _)
  rw [el, er]

/-- The host's dot product at (a, b). -/
theorem dotGeneral_ix2 {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (mmDims A K B wf) prec sched l r (ix2 a b) = ∑ k : Fin K, l (ix2 a k) * r (ix2 k b) :=
  (Ideal.dotGeneral_apply _ prec sched l r _).trans (contr_sum wf l r a b)

/-- The kernel's matrix product into a zero accumulator at (a, b). -/
theorem matmul_zero_ix2 {φ₁ φ₂ : FTy} (prec : Option ContractPrecision)
    (l : FVec Ideal ⟨2, ![A, K]⟩ φ₁) (r : FVec Ideal ⟨2, ![K, B]⟩ φ₂) (a : Fin A) (b : Fin B) :
    FloatOps.matmul (mmDims A K B wf) prec l r (constant ⟨2, ![A, B]⟩ .f32 0x00000000#32) (ix2 a b)
      = ∑ k : Fin K, l (ix2 a k) * r (ix2 k b) :=
  (Ideal.matmul_constant_zero_apply _ prec l r _).trans (contr_sum wf l r a b)

end Idealize.ShloMosaic.MatmulIdx

end
-- ==== Proof.Region0.lean ====
/-
  Region 0: a [50000, 128] by [128, 64] matrix product, five row blocks of 10000.

  Grid point t loads rows 10000·t … 10000·t + 9999 of the left matrix X and the whole right matrix W, multiplies them
  into a zero accumulator (the change of float format before the product is the identity on extended reals), and
  stores the [10000, 64] product at the same rows of the output. Row r of a product depends on row r of X only, so
  entry (r, j) of the output is the sum over k of X(r, k) · W(k, j): the blocks are disjoint, fill the array, and each
  is the restriction of that one whole-array function.
-/
import proofs.«124152_j6511170421729_1_alg».proof.Proof.Gen.KernelIdeal.Frame
import proofs.«124152_j6511170421729_1_alg».proof.Proof.LibMatmul
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open scoped BigOperators

theorem zeroOff0 : (![0, 0] : Fin 2 → Nat) = fun _ => 0 := funext fun a => by fin_cases a <;> rfl

/-- Entry (r, j) of the product: the sum over k of X(r, k) · W(k, j). -/
def matProd0 (x : S50000x128.Idx → Ideal .f32) (w : S128x64.Idx → Ideal .f32) : S50000x64.Idx → Ideal .f32 :=
  fun i => ∑ k : Fin 128, x (ix2 (⟨(i 0).val, (i 0).isLt⟩ : Fin 50000) k) * w (ix2 k (⟨(i 1).val, (i 1).isLt⟩ : Fin 64))

/-- The body's arithmetic at row p, column q of a block: the product of the block with W at (p, q). -/
theorem pay0_at (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact Idealize.ShloMosaic.MatmulIdx.matmul_zero_ix2 (A := 10000) (K := 128) (B := 64) (φ₁ := .bf16) (φ₂ := .bf16)
    dot_S10000x128_S128x64_S10000x64_1_0_0_1_n_n.wf none x0 x1 p q

/-- A block's product at (p, q) is the whole product at (r, q') when the block's row p is X's row r and W is W. -/
theorem matRow0_congr (x0 : Vec Ideal S10000x128 .f32) (x1 : Vec Ideal S128x64 .f32) (x : S50000x128.Idx → Ideal .f32) (w : S128x64.Idx → Ideal .f32)
    (r : Fin 50000) (p : Fin 10000) (q q' : Fin 64)
    (h0 : ∀ k : Fin 128, x0 (ix2 p k) = x (ix2 r k)) (h1 : ∀ k : Fin 128, x1 (ix2 k q) = w (ix2 k q')) :
    ∑ k : Fin 128, x0 (ix2 p k) * x1 (ix2 k q) = ∑ k : Fin 128, x (ix2 r k) * w (ix2 k q') := by
  simp only [h0, h1]

/-- The three index maps over the five grid points: the output's and X's row blocks move together, W's block stays. -/
theorem idx_facts0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 4 :=
  (by decide +kernel : ∀ t : Fin grid0.N, _)

/-- Every one of the five row blocks is some grid point's. -/
theorem idx_onto0 : ∀ q0 : Fin 5, ∃ t : Fin cfg0.N, win0_2.index t (0 : Fin 2) = q0.val :=
  (by decide +kernel : ∀ q0 : Fin 5, ∃ t : Fin grid0.N, win0_2.index t (0 : Fin 2) = q0.val)

set_option maxHeartbeats 3200000 in
set_option backward.isDefEq.respectTransparency.types false in
/-- What grid point t writes back is block t of the whole-array product. -/
theorem flushed0_eq (c : Dev nD) (t : Fin cfg0.N) :
    (dat0 V c).flushed 2 t = ((cfg0.win 2).blk t).view.read (Elt Ideal)
      (matProd0 (V c (Pipeline.arrRef spec0 0)) (V c (Pipeline.arrRef spec0 1))) := by
  show (cfg0.win 2).cut (grid0.coords t) ((dat0 V c).after 2 t) = _
  rw [after0_2]
  unfold out0_2
  rw [View.canon_unit_zero zeroOff0]
  simp only [View.ld_unit_zero (S := S10000x128) zeroOff0, View.ld_unit_zero (S := S128x64) zeroOff0]
  obtain ⟨e0, e1, e2, e3, e4, e5⟩ := idx_facts0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q) = _
  rw [pay0_at]
  refine matRow0_congr _ _ (V c (Pipeline.arrRef spec0 0)) (V c (Pipeline.arrRef spec0 1))
    (⟨((((cfg0.win 2).blk t).view.emb (ix2 p q)) 0).val, ((((cfg0.win 2).blk t).view.emb (ix2 p q)) 0).isLt⟩ : Fin 50000) p q
    (⟨((((cfg0.win 2).blk t).view.emb (ix2 p q)) 1).val, ((((cfg0.win 2).blk t).view.emb (ix2 p q)) 1).isLt⟩ : Fin 64)
    (fun k => ?_) (fun k => ?_)
  · show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- Row r lies in grid point t's block iff t's block index is r / 10000. -/
theorem mem_blk0 (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v13).slice (win0_2.rect t)).set ↔ _
  rw [View.set_slice_whole, Rect.mem_set_unit]
  exact Iff.rfl

/-- The five blocks fill the array. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto0 ⟨(i 0).val / 10000, by omega⟩
  have q0 : win0_2.index t (0 : Fin 2) = (i 0).val / 10000 := ht
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region, as one function of the arrays the region found. -/
theorem arr0 (c : Dev nD) : (dat0 V c).arrAt 2 cfg0.N
    = matProd0 (V c (Pipeline.arrRef spec0 0)) (V c (Pipeline.arrRef spec0 1)) :=
  (dat0 V c).arrAt_eq_of_cover 2 _ (fun t _ => flushed0_eq V c t) (cover0)

end Cert.KernelIdeal.Blocks

end
-- ==== Proof.Region1.lean ====
/-
  Region 1: a row bias added and negatives clipped, five row blocks of 10000.

  The region reads a [50000, 64] array A and a [1, 64] row B and writes a [50000, 64] array. Grid point t loads rows
  10000·t … 10000·t + 9999 of A and the whole row B, and stores max(A(r, j) + B(0, j), 0) at the same rows. The five
  blocks are disjoint and fill the array, so afterwards entry (r, j) of the output is max(A(r, j) + B(0, j), 0) of the
  arrays as the region found them.
-/
import proofs.«124152_j6511170421729_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroOff1 : (![0, 0] : Fin 2 → Nat) = fun _ => 0 := funext fun a => by fin_cases a <;> rfl

/-- Entry (r, j) of the output: max(A(r, j) + B(0, j), 0). -/
def biasRelu1 (a : S50000x64.Idx → Ideal .f32) (b : S1x64.Idx → Ideal .f32) : S50000x64.Idx → Ideal .f32 :=
  fun i => FloatOps.maximumf (FloatOps.addf (a i) (b (ix2 (0 : Fin 1) (⟨(i 1).val, (i 1).isLt⟩ : Fin 64))))
    (Scalar.ofBits .f32 0x00000000#32)

/-- The body's arithmetic at row p, column q of a block: the block's entry plus the row's, clipped at zero. -/
theorem pay1_at (x0 : Vec Ideal S10000x64 .f32) (x1 : Vec Ideal S1x64 .f32) (p : Fin 10000) (q : Fin 64) :
    k1_pay1 (F := Ideal) x0 x1 (ix2 p q)
      = FloatOps.maximumf (FloatOps.addf (x0 (ix2 p q)) (x1 (ix2 (0 : Fin 1) q))) (Scalar.ofBits .f32 0x00000000#32) := by
  unfold k1_pay1
  dsimp only [Idealize.ShloMosaic.maximumf, Idealize.ShloMosaic.addf, Idealize.ShloMosaic.broadcast]
  rw [shapeCast_self, shapeCast_self, broadcastTo_1b_ab_apply]

/-- The three index maps over the five grid points: the output's and A's row blocks move together, B's block stays. -/
theorem idx_facts1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 4 :=
  (by decide +kernel : ∀ t : Fin grid1.N, _)

/-- Every one of the five row blocks is some grid point's. -/
theorem idx_onto1 : ∀ q0 : Fin 5, ∃ t : Fin cfg1.N, win1_2.index t (0 : Fin 2) = q0.val :=
  (by decide +kernel : ∀ q0 : Fin 5, ∃ t : Fin grid1.N, win1_2.index t (0 : Fin 2) = q0.val)

set_option maxHeartbeats 3200000 in
set_option backward.isDefEq.respectTransparency.types false in
/-- What grid point t writes back is block t of the whole-array function. -/
theorem flushed1_eq (c : Dev nD) (t : Fin cfg1.N) :
    (dat1 V c).flushed 2 t = ((cfg1.win 2).blk t).view.read (Elt Ideal)
      (biasRelu1 (V c (Pipeline.arrRef spec1 0)) (V c (Pipeline.arrRef spec1 1))) := by
  show (cfg1.win 2).cut (grid1.coords t) ((dat1 V c).after 2 t) = _
  rw [after1_2]
  unfold out1_2
  rw [View.canon_unit_zero zeroOff1]
  simp only [View.ld_unit_zero (S := S10000x64) zeroOff1, View.ld_unit_zero (S := S1x64) zeroOff1]
  obtain ⟨e0, e1, e2, e3, e4, e5⟩ := idx_facts1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (ix2 p q) = _
  rw [pay1_at]
  show FloatOps.maximumf (F := Ideal) (φ := .f32) (FloatOps.addf (F := Ideal) (φ := .f32) (V c (Pipeline.arrRef spec1 0) (((cfg1.win 0).blk t).view.emb (ix2 p q)))
      (V c (Pipeline.arrRef spec1 1) (((cfg1.win 1).blk t).view.emb (ix2 (0 : Fin 1) q)))) _
    = FloatOps.maximumf (F := Ideal) (φ := .f32) (FloatOps.addf (F := Ideal) (φ := .f32) (V c (Pipeline.arrRef spec1 0) (((cfg1.win 2).blk t).view.emb (ix2 p q)))
      (V c (Pipeline.arrRef spec1 1) (ix2 (0 : Fin 1) (⟨((((cfg1.win 2).blk t).view.emb (ix2 p q)) 1).val, ((((cfg1.win 2).blk t).view.emb (ix2 p q)) 1).isLt⟩ : Fin 64)))) _
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]

/-- Row r lies in grid point t's block iff t's block index is r / 10000. -/
theorem mem_blk1 (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v43).slice (win1_2.rect t)).set ↔ _
  rw [View.set_slice_whole, Rect.mem_set_unit]
  exact Iff.rfl

/-- The five blocks fill the array. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto1 ⟨(i 0).val / 10000, by omega⟩
  have q0 : win1_2.index t (0 : Fin 2) = (i 0).val / 10000 := ht
  obtain ⟨e0, e1, e2, e3, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region, as one function of the arrays the region found. -/
theorem arr1 (c : Dev nD) : (dat1 V c).arrAt 2 cfg1.N
    = biasRelu1 (V c (Pipeline.arrRef spec1 0)) (V c (Pipeline.arrRef spec1 1)) :=
  (dat1 V c).arrAt_eq_of_cover 2 _ (fun t _ => flushed1_eq V c t) (cover1)

end Cert.KernelIdeal.Blocks

end
-- ==== Proof.Region2.lean ====
/-
  Region 2: a [50000, 64] by [64, 64] matrix product, five row blocks of 10000.

  Grid point t loads rows 10000·t … 10000·t + 9999 of the left matrix X and the whole right matrix W, multiplies them
  into a zero accumulator (the change of float format before the product is the identity on extended reals), and
  stores the [10000, 64] product at the same rows of the output. Row r of a product depends on row r of X only, so
  entry (r, j) of the output is the sum over k of X(r, k) · W(k, j): the blocks are disjoint, fill the array, and each
  is the restriction of that one whole-array function.
-/
import proofs.«124152_j6511170421729_1_alg».proof.Proof.Gen.KernelIdeal.Frame
import proofs.«124152_j6511170421729_1_alg».proof.Proof.LibMatmul
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open scoped BigOperators

theorem zeroOff2 : (![0, 0] : Fin 2 → Nat) = fun _ => 0 := funext fun a => by fin_cases a <;> rfl

/-- Entry (r, j) of the product: the sum over k of X(r, k) · W(k, j). -/
def matProd2 (x : S50000x64.Idx → Ideal .f32) (w : S64x64.Idx → Ideal .f32) : S50000x64.Idx → Ideal .f32 :=
  fun i => ∑ k : Fin 64, x (ix2 (⟨(i 0).val, (i 0).isLt⟩ : Fin 50000) k) * w (ix2 k (⟨(i 1).val, (i 1).isLt⟩ : Fin 64))

/-- The body's arithmetic at row p, column q of a block: the product of the block with W at (p, q). -/
theorem pay2_at (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  have hmm := Idealize.ShloMosaic.MatmulIdx.matmul_zero_ix2 (A := 10000) (K := 64) (B := 64) (φ₁ := .bf16) (φ₂ := .bf16)
    dot_S10000x64_S64x64_S10000x64_1_0_0_1_n_n.wf none x0 x1 p q
  unfold k2_pay1
  rw [shapeCast_self]
  exact hmm

/-- A block's product at (p, q) is the whole product at (r, q') when the block's row p is X's row r and W is W. -/
theorem matRow2_congr (x0 : Vec Ideal S10000x64 .f32) (x1 : Vec Ideal S64x64 .f32) (x : S50000x64.Idx → Ideal .f32) (w : S64x64.Idx → Ideal .f32)
    (r : Fin 50000) (p : Fin 10000) (q q' : Fin 64)
    (h0 : ∀ k : Fin 64, x0 (ix2 p k) = x (ix2 r k)) (h1 : ∀ k : Fin 64, x1 (ix2 k q) = w (ix2 k q')) :
    ∑ k : Fin 64, x0 (ix2 p k) * x1 (ix2 k q) = ∑ k : Fin 64, x (ix2 r k) * w (ix2 k q') := by
  simp only [h0, h1]

/-- The three index maps over the five grid points: the output's and X's row blocks move together, W's block stays. -/
theorem idx_facts2 : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 4 :=
  (by decide +kernel : ∀ t : Fin grid2.N, _)

/-- Every one of the five row blocks is some grid point's. -/
theorem idx_onto2 : ∀ q0 : Fin 5, ∃ t : Fin cfg2.N, win2_2.index t (0 : Fin 2) = q0.val :=
  (by decide +kernel : ∀ q0 : Fin 5, ∃ t : Fin grid2.N, win2_2.index t (0 : Fin 2) = q0.val)

set_option maxHeartbeats 3200000 in
set_option backward.isDefEq.respectTransparency.types false in
/-- What grid point t writes back is block t of the whole-array product. -/
theorem flushed2_eq (c : Dev nD) (t : Fin cfg2.N) :
    (dat2 V c).flushed 2 t = ((cfg2.win 2).blk t).view.read (Elt Ideal)
      (matProd2 (V c (Pipeline.arrRef spec2 0)) (V c (Pipeline.arrRef spec2 1))) := by
  show (cfg2.win 2).cut (grid2.coords t) ((dat2 V c).after 2 t) = _
  rw [after2_2]
  unfold out2_2
  rw [View.canon_unit_zero zeroOff2]
  simp only [View.ld_unit_zero (S := S10000x64) zeroOff2, View.ld_unit_zero (S := S64x64) zeroOff2]
  obtain ⟨e0, e1, e2, e3, e4, e5⟩ := idx_facts2 t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q) = _
  rw [pay2_at]
  refine matRow2_congr _ _ (V c (Pipeline.arrRef spec2 0)) (V c (Pipeline.arrRef spec2 1))
    (⟨((((cfg2.win 2).blk t).view.emb (ix2 p q)) 0).val, ((((cfg2.win 2).blk t).view.emb (ix2 p q)) 0).isLt⟩ : Fin 50000) p q
    (⟨((((cfg2.win 2).blk t).view.emb (ix2 p q)) 1).val, ((((cfg2.win 2).blk t).view.emb (ix2 p q)) 1).isLt⟩ : Fin 64)
    (fun k => ?_) (fun k => ?_)
  · show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  · show V c (Pipeline.arrRef spec2 1) (((cfg2.win 1).blk t).view.emb (ix2 k q)) = _
    refine congrArg (V c (Pipeline.arrRef spec2 1)) (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega

/-- Row r lies in grid point t's block iff t's block index is r / 10000. -/
theorem mem_blk2 (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- The five blocks fill the array. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 10000, by omega⟩
  have q0 : win2_2.index t (0 : Fin 2) = (i 0).val / 10000 := ht
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region, as one function of the arrays the region found. -/
theorem arr2 (c : Dev nD) : (dat2 V c).arrAt 2 cfg2.N
    = matProd2 (V c (Pipeline.arrRef spec2 0)) (V c (Pipeline.arrRef spec2 1)) :=
  (dat2 V c).arrAt_eq_of_cover 2 _ (fun t _ => flushed2_eq V c t) (cover2)

end Cert.KernelIdeal.Blocks

end
-- ==== Proof.Region3.lean ====
/-
  Region 3: a row bias added and negatives clipped, five row blocks of 10000.

  The region reads a [50000, 64] array A and a [1, 64] row B and writes a [50000, 64] array. Grid point t loads rows
  10000·t … 10000·t + 9999 of A and the whole row B, and stores max(A(r, j) + B(0, j), 0) at the same rows. The five
  blocks are disjoint and fill the array, so afterwards entry (r, j) of the output is max(A(r, j) + B(0, j), 0) of the
  arrays as the region found them.
-/
import proofs.«124152_j6511170421729_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroOff3 : (![0, 0] : Fin 2 → Nat) = fun _ => 0 := funext fun a => by fin_cases a <;> rfl

/-- Entry (r, j) of the output: max(A(r, j) + B(0, j), 0). -/
def biasRelu3 (a : S50000x64.Idx → Ideal .f32) (b : S1x64.Idx → Ideal .f32) : S50000x64.Idx → Ideal .f32 :=
  fun i => FloatOps.maximumf (FloatOps.addf (a i) (b (ix2 (0 : Fin 1) (⟨(i 1).val, (i 1).isLt⟩ : Fin 64))))
    (Scalar.ofBits .f32 0x00000000#32)

/-- The body's arithmetic at row p, column q of a block: the block's entry plus the row's, clipped at zero. -/
theorem pay3_at (x0 : Vec Ideal S10000x64 .f32) (x1 : Vec Ideal S1x64 .f32) (p : Fin 10000) (q : Fin 64) :
    k3_pay1 (F := Ideal) x0 x1 (ix2 p q)
      = FloatOps.maximumf (FloatOps.addf (x0 (ix2 p q)) (x1 (ix2 (0 : Fin 1) q))) (Scalar.ofBits .f32 0x00000000#32) := by
  unfold k3_pay1
  dsimp only [Idealize.ShloMosaic.maximumf, Idealize.ShloMosaic.addf, Idealize.ShloMosaic.broadcast]
  rw [shapeCast_self, shapeCast_self, broadcastTo_1b_ab_apply]

/-- The three index maps over the five grid points: the output's and A's row blocks move together, B's block stays. -/
theorem idx_facts3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 4 :=
  (by decide +kernel : ∀ t : Fin grid3.N, _)

/-- Every one of the five row blocks is some grid point's. -/
theorem idx_onto3 : ∀ q0 : Fin 5, ∃ t : Fin cfg3.N, win3_2.index t (0 : Fin 2) = q0.val :=
  (by decide +kernel : ∀ q0 : Fin 5, ∃ t : Fin grid3.N, win3_2.index t (0 : Fin 2) = q0.val)

set_option maxHeartbeats 3200000 in
set_option backward.isDefEq.respectTransparency.types false in
/-- What grid point t writes back is block t of the whole-array function. -/
theorem flushed3_eq (c : Dev nD) (t : Fin cfg3.N) :
    (dat3 V c).flushed 2 t = ((cfg3.win 2).blk t).view.read (Elt Ideal)
      (biasRelu3 (V c (Pipeline.arrRef spec3 0)) (V c (Pipeline.arrRef spec3 1))) := by
  show (cfg3.win 2).cut (grid3.coords t) ((dat3 V c).after 2 t) = _
  rw [after3_2]
  unfold out3_2
  rw [View.canon_unit_zero zeroOff3]
  simp only [View.ld_unit_zero (S := S10000x64) zeroOff3, View.ld_unit_zero (S := S1x64) zeroOff3]
  obtain ⟨e0, e1, e2, e3, e4, e5⟩ := idx_facts3 t
  funext j
  obtain ⟨p, q, rfl⟩ : ∃ (p : Fin 10000) (q : Fin 64), j = ix2 p q := ⟨j 0, j 1, eq_ix2 j⟩
  show k3_pay1 (F := Ideal) (iblk3 V c 0 t) (iblk3 V c 1 t) (ix2 p q) = _
  rw [pay3_at]
  show FloatOps.maximumf (F := Ideal) (φ := .f32) (FloatOps.addf (F := Ideal) (φ := .f32) (V c (Pipeline.arrRef spec3 0) (((cfg3.win 0).blk t).view.emb (ix2 p q)))
      (V c (Pipeline.arrRef spec3 1) (((cfg3.win 1).blk t).view.emb (ix2 (0 : Fin 1) q)))) _
    = FloatOps.maximumf (F := Ideal) (φ := .f32) (FloatOps.addf (F := Ideal) (φ := .f32) (V c (Pipeline.arrRef spec3 0) (((cfg3.win 2).blk t).view.emb (ix2 p q)))
      (V c (Pipeline.arrRef spec3 1) (ix2 (0 : Fin 1) (⟨((((cfg3.win 2).blk t).view.emb (ix2 p q)) 1).val, ((((cfg3.win 2).blk t).view.emb (ix2 p q)) 1).isLt⟩ : Fin 64)))) _
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q)
      = ix2 (0 : Fin 1) (⟨((((cfg3.win 2).blk t).view.emb (ix2 p q)) 1).val, ((((cfg3.win 2).blk t).view.emb (ix2 p q)) 1).isLt⟩ : Fin 64) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1]

/-- Row r lies in grid point t's block iff t's block index is r / 10000. -/
theorem mem_blk3 (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v74).slice (win3_2.rect t)).set ↔ _
  rw [View.set_slice_whole, Rect.mem_set_unit]
  exact Iff.rfl

/-- The five blocks fill the array. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto3 ⟨(i 0).val / 10000, by omega⟩
  have q0 : win3_2.index t (0 : Fin 2) = (i 0).val / 10000 := ht
  obtain ⟨e0, e1, e2, e3, e4, e5⟩ := idx_facts3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region, as one function of the arrays the region found. -/
theorem arr3 (c : Dev nD) : (dat3 V c).arrAt 2 cfg3.N
    = biasRelu3 (V c (Pipeline.arrRef spec3 0)) (V c (Pipeline.arrRef spec3 1)) :=
  (dat3 V c).arrAt_eq_of_cover 2 _ (fun t _ => flushed3_eq V c t) (cover3)

end Cert.KernelIdeal.Blocks

end
-- ==== Proof.LibHostDot.lean ====
/-
  The host's plain matrix product read at an index, over the extended reals, for a program's own record of
  dimension numbers: entry (a, b) of l @ r is the sum over k of l(a, k) · r(k, b). Generic in the extents.
-/
import proofs.«124152_j6511170421729_1_alg».proof.Proof.LibMatmul

noncomputable section

open scoped BigOperators

namespace Idealize.ShloMosaic.MatmulIdx

open Idealize.ShloMosaic Idealize.ShloMosaic.ValueIdx

theorem host_dot_ix2 {A K B : Nat} (wf : DotDims.WF ⟨2, ![A, K]⟩ ⟨2, ![K, B]⟩ ⟨2, ![A, B]⟩ [1] [0] [0] [1] [] [])
    (d : DotDims ⟨2, ![A, K]⟩ ⟨2, ![K, B]⟩ ⟨2, ![A, B]⟩) (hd : d = mmDims A K B wf) {φ₁ φ₂ : FTy}
    (prec : Option ContractPrecision) (l : FVec Ideal ⟨2, ![A, K]⟩ φ₁) (r : FVec Ideal ⟨2, ![K, B]⟩ φ₂) (a : Fin A) (b : Fin B) :
    Host.dotGeneral (F := Ideal) d prec l r (ix2 a b) = ∑ k : Fin K, l (ix2 a k) * r (ix2 k b) := by
  subst hd
  simp only [Host.dotGeneral]
  exact dotGeneral_ix2 wf prec _ l r a b

end Idealize.ShloMosaic.MatmulIdx

end
-- ==== Proof.Bridge1.lean ====
/-
  The two graph-convolution layers, kernel against reference, buffer by buffer.

  A layer is: a matrix product X·W (a kernel region in one program, a host dot product in the other); the aggregation
  (the same host operations in both: gather the product's rows at the edge sources, scale each by the product of the two
  end nodes' normalisations, scatter-add at the edge targets into zeros); then the bias row added and negatives clipped
  (a kernel region against a host add and maximum). Each kernel buffer is shown to hold the reference's stage of the
  same arguments: the regions by the whole-array functions of their blocks, read entry by entry against the reference's
  operations; the aggregations because they are operation for operation the reference's, applied to equal operands.
-/
import proofs.«124152_j6511170421729_1_alg».proof.Proof.Gen.KernelIdeal.Frame
import proofs.«124152_j6511170421729_1_alg».proof.Proof.Gen.ReferenceIdeal.Read
import Idealize.ShloMosaic.Lib.StableHlo.Run
import Idealize.ShloMosaic.PureOps.Ideal
import proofs.«124152_j6511170421729_1_alg».proof.Proof.Bridge0
import proofs.«124152_j6511170421729_1_alg».proof.Proof.Carry
import proofs.«124152_j6511170421729_1_alg».proof.Proof.Region0
import proofs.«124152_j6511170421729_1_alg».proof.Proof.Region1
import proofs.«124152_j6511170421729_1_alg».proof.Proof.Region2
import proofs.«124152_j6511170421729_1_alg».proof.Proof.Region3
import proofs.«124152_j6511170421729_1_alg».proof.Proof.LibHostDot
import Idealize.ShloMosaic.Lib.ValueLayout
import Idealize.ShloMosaic.Lib.Pipeline.Value

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

open Idealize.ShloMosaic.ValueIdx
open scoped BigOperators

/-- The blocked product of region 0 is the host's dot product of the whole matrices. -/
theorem matProd0_ref (x : S50000x128.Idx → Ideal .f32) (w : S128x64.Idx → Ideal .f32) :
    Cert.KernelIdeal.Blocks.matProd0 x w = Host.dotGeneral (F := Ideal) Cert.ReferenceIdeal.dot_S50000x128_S128x64_S50000x64_1_0_0_1_n_n none x w := by
  funext i
  obtain ⟨r, q, rfl⟩ : ∃ (r : Fin 50000) (q : Fin 64), i = ix2 r q := ⟨i 0, i 1, eq_ix2 i⟩
  exact (Idealize.ShloMosaic.MatmulIdx.host_dot_ix2 (A := 50000) (K := 128) (B := 64)
    Cert.ReferenceIdeal.dot_S50000x128_S128x64_S50000x64_1_0_0_1_n_n.wf _ rfl none x w r q).symm

/-- The blocked product of region 2 is the host's dot product of the whole matrices. -/
theorem matProd2_ref (x : S50000x64.Idx → Ideal .f32) (w : S64x64.Idx → Ideal .f32) :
    Cert.KernelIdeal.Blocks.matProd2 x w = Host.dotGeneral (F := Ideal) Cert.ReferenceIdeal.dot_S50000x64_S64x64_S50000x64_1_0_0_1_n_n none x w := by
  funext i
  obtain ⟨r, q, rfl⟩ : ∃ (r : Fin 50000) (q : Fin 64), i = ix2 r q := ⟨i 0, i 1, eq_ix2 i⟩
  exact (Idealize.ShloMosaic.MatmulIdx.host_dot_ix2 (A := 50000) (K := 64) (B := 64)
    Cert.ReferenceIdeal.dot_S50000x64_S64x64_S50000x64_1_0_0_1_n_n.wf _ rfl none x w r q).symm

/-- A bias vector reshaped to a row, added along rows and clipped, entry by entry: the host's two broadcasts, add and
    maximum with a zero splat. -/
theorem biasRelu_ref (a : S50000x64.Idx → Ideal .f32) (b : S64.Idx → Ideal .f32) (i : S50000x64.Idx) :
    FloatOps.maximumf (FloatOps.addf (a i) (shapeCast S1x64 b shapeCasts_S64_S1x64 (ix2 (0 : Fin 1) (⟨(i 1).val, (i 1).isLt⟩ : Fin 64))))
        (Scalar.ofBits .f32 0x00000000#32)
      = FloatOps.maximumf (FloatOps.addf (a i) (b (Cert.ReferenceIdeal.Read.idx_main_v42 (Cert.ReferenceIdeal.Read.idx_main_v43 i))))
        (FloatOps.ofBits .f32 0x00000000#32) := by
  rw [shapeCast_a_1a_apply]
  have e : Cert.ReferenceIdeal.Read.idx_main_v42 (Cert.ReferenceIdeal.Read.idx_main_v43 i) = ix1 (⟨(i 1).val, (i 1).isLt⟩ : Fin 64) := by
    funext a; match a with | ⟨0, _⟩ => rfl
  rw [e]

/-- Region 0's output is the reference's first dot product. -/
theorem h0_at2 (c : Dev nD) : W2 (F := Ideal) m ρ c (Proc.devRef .tc main_v13) = Cert.ReferenceIdeal.Read.val_main_v13 (F := Ideal) (m ((c : Thread nD τ).loc main_arg0)) (m ((c : Thread nD τ).loc main_arg4)) := by
  refine ((W2_arr (F := Ideal) m ρ c 2).trans (Cert.KernelIdeal.Blocks.arr0 (V1 (F := Ideal) m ρ) c)).trans ?_
  show Cert.KernelIdeal.Blocks.matProd0 (W1 (F := Ideal) m ρ c (Proc.devRef .tc main_arg0)) (W1 (F := Ideal) m ρ c (Proc.devRef .tc main_arg4)) = _
  rw [Cert.KernelIdeal.Carry.W1_arg0, Cert.KernelIdeal.Carry.W1_arg4, matProd0_ref]
  rfl

/-- The first aggregation: the same host operations on equal operands. -/
theorem agg0_at3 (c : Dev nD) : W3 (F := Ideal) m ρ c (Proc.devRef .tc main_v41) = Cert.ReferenceIdeal.Read.val_main_v41 (F := Ideal) (m ((c : Thread nD τ).loc main_arg0)) (m ((c : Thread nD τ).loc main_arg1)) (m ((c : Thread nD τ).loc main_arg4)) := by
  show StableHlo.after hostOps1 (W2 (F := Ideal) m ρ c) (Proc.devRef .tc main_v41) = _
  dsimp only [hostOps1]
  after_results_simp
  rw [src_at2, dst_at2, dinv_at2, h0_at2]
  unfold Cert.ReferenceIdeal.Read.val_main_v41 Cert.ReferenceIdeal.Read.val_main_v40 Cert.ReferenceIdeal.Read.val_main_v39 Cert.ReferenceIdeal.Read.val_main_cst_7 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_c_6 Cert.ReferenceIdeal.Read.val_main_v30 Cert.ReferenceIdeal.Read.val_main_v29 Cert.ReferenceIdeal.Read.val_main_c_5 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_c_4 Cert.ReferenceIdeal.Read.val_main_v22 Cert.ReferenceIdeal.Read.val_main_v21 Cert.ReferenceIdeal.Read.val_main_c_3 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_c_2 Cert.ReferenceIdeal.Read.val_main_v15 Cert.ReferenceIdeal.Read.val_main_v14 Cert.ReferenceIdeal.Read.val_main_c
  rfl

/-- The first bias as a row. -/
theorem brow0_at3 (c : Dev nD) : W3 (F := Ideal) m ρ c (Proc.devRef .tc main_v42)
    = shapeCast S1x64 (m ((c : Thread nD τ).loc main_arg5)) shapeCasts_S64_S1x64 := by
  show StableHlo.after hostOps1 (W2 (F := Ideal) m ρ c) (Proc.devRef .tc main_v42) = _
  dsimp only [hostOps1]
  after_results_simp
  rw [Cert.KernelIdeal.Carry.W2_arg5]
  try rfl

/-- Region 1's output is the reference's first layer after its clipping. -/
theorem d0_at4 (c : Dev nD) : W4 (F := Ideal) m ρ c (Proc.devRef .tc main_v43) = Cert.ReferenceIdeal.Read.val_main_v45 (F := Ideal) (m ((c : Thread nD τ).loc main_arg0)) (m ((c : Thread nD τ).loc main_arg1)) (m ((c : Thread nD τ).loc main_arg4)) (m ((c : Thread nD τ).loc main_arg5)) := by
  refine ((W4_arr (F := Ideal) m ρ c 2).trans (Cert.KernelIdeal.Blocks.arr1 (V3 (F := Ideal) m ρ) c)).trans ?_
  show Cert.KernelIdeal.Blocks.biasRelu1 (W3 (F := Ideal) m ρ c (Proc.devRef .tc main_v41)) (W3 (F := Ideal) m ρ c (Proc.devRef .tc main_v42)) = _
  rw [agg0_at3, brow0_at3]
  funext i
  rw [Cert.ReferenceIdeal.Read.val_main_v45_apply, Cert.ReferenceIdeal.Read.val_main_v44_apply, Cert.ReferenceIdeal.Read.val_main_v43_apply,
    Cert.ReferenceIdeal.Read.val_main_v42_apply, Cert.ReferenceIdeal.Read.val_main_call0_v0_apply, Cert.ReferenceIdeal.Read.val_main_call0_cst_apply]
  exact biasRelu_ref _ _ i

/-- Region 2's output is the reference's second dot product. -/
theorem h1_at5 (c : Dev nD) : W5 (F := Ideal) m ρ c (Proc.devRef .tc main_v44) = Cert.ReferenceIdeal.Read.val_main_v46 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine ((W5_arr (F := Ideal) m ρ c 2).trans (Cert.KernelIdeal.Blocks.arr2 (V4 (F := Ideal) m ρ) c)).trans ?_
  show Cert.KernelIdeal.Blocks.matProd2 (W4 (F := Ideal) m ρ c (Proc.devRef .tc main_v43)) (W4 (F := Ideal) m ρ c (Proc.devRef .tc main_arg6)) = _
  rw [d0_at4, Cert.KernelIdeal.Carry.W4_arg6, matProd2_ref]
  rfl

/-- The second aggregation: the same host operations on equal operands. -/
theorem agg1_at6 (c : Dev nD) : W6 (F := Ideal) m ρ c (Proc.devRef .tc main_v72) = Cert.ReferenceIdeal.Read.val_main_v74 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps3 (W5 (F := Ideal) m ρ c) (Proc.devRef .tc main_v72) = _
  dsimp only [hostOps3]
  after_results_simp
  rw [src_at5, dst_at5, dinv_at5, h1_at5]
  unfold Cert.ReferenceIdeal.Read.val_main_v74 Cert.ReferenceIdeal.Read.val_main_v73 Cert.ReferenceIdeal.Read.val_main_v72 Cert.ReferenceIdeal.Read.val_main_cst_14 Cert.ReferenceIdeal.Read.val_main_v71 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_v65 Cert.ReferenceIdeal.Read.val_main_v64 Cert.ReferenceIdeal.Read.val_main_c_13 Cert.ReferenceIdeal.Read.val_main_v63 Cert.ReferenceIdeal.Read.val_main_v62 Cert.ReferenceIdeal.Read.val_main_c_12 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_c_11 Cert.ReferenceIdeal.Read.val_main_v55 Cert.ReferenceIdeal.Read.val_main_v54 Cert.ReferenceIdeal.Read.val_main_c_10 Cert.ReferenceIdeal.Read.val_main_v53 Cert.ReferenceIdeal.Read.val_main_v52 Cert.ReferenceIdeal.Read.val_main_v51 Cert.ReferenceIdeal.Read.val_main_v50 Cert.ReferenceIdeal.Read.val_main_v49 Cert.ReferenceIdeal.Read.val_main_c_9 Cert.ReferenceIdeal.Read.val_main_v48 Cert.ReferenceIdeal.Read.val_main_v47 Cert.ReferenceIdeal.Read.val_main_c_8
  rfl

/-- The second bias as a row. -/
theorem brow1_at6 (c : Dev nD) : W6 (F := Ideal) m ρ c (Proc.devRef .tc main_v73)
    = shapeCast S1x64 (m ((c : Thread nD τ).loc main_arg7)) shapeCasts_S64_S1x64 := by
  show StableHlo.after hostOps3 (W5 (F := Ideal) m ρ c) (Proc.devRef .tc main_v73) = _
  dsimp only [hostOps3]
  after_results_simp
  rw [Cert.KernelIdeal.Carry.W5_arg7]
  try rfl

/-- Region 3's output is the reference's second layer after its clipping: the features both programs' heads read. -/
theorem d_at7 (c : Dev nD) : W7 (F := Ideal) m ρ c (Proc.devRef .tc main_v74) = Cert.ReferenceIdeal.Read.val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine ((W7_arr (F := Ideal) m ρ c 2).trans (Cert.KernelIdeal.Blocks.arr3 (V6 (F := Ideal) m ρ) c)).trans ?_
  show Cert.KernelIdeal.Blocks.biasRelu3 (W6 (F := Ideal) m ρ c (Proc.devRef .tc main_v72)) (W6 (F := Ideal) m ρ c (Proc.devRef .tc main_v73)) = _
  rw [agg1_at6, brow1_at6]
  funext i
  rw [Cert.ReferenceIdeal.Read.val_main_v78_apply, Cert.ReferenceIdeal.Read.val_main_v77_apply, Cert.ReferenceIdeal.Read.val_main_v76_apply,
    Cert.ReferenceIdeal.Read.val_main_v75_apply, Cert.ReferenceIdeal.Read.val_main_call1_v0_apply, Cert.ReferenceIdeal.Read.val_main_call1_cst_apply]
  exact biasRelu_ref _ _ i

end Cert.Bridge

end
-- ==== Proof.Region4.lean ====
/-
  Region 4: the two output heads, five row blocks of 10000.

  The region reads the [50000, 64] features D and, per head, a [64, 64] matrix Wa, a [1, 64] row Ba, a [64, 1] column Wb
  and a [1, 1] entry Bb; it writes two [50000, 1] columns. Grid point t loads rows 10000·t … 10000·t + 9999 of D and all
  of the small operands, and for each head stores, at the same rows,
      logistic( Σ_k max( Σ_j D(r, j)·Wa(j, k) + Ba(0, k), 0 ) · Wb(k, 0) + Bb(0, 0) ),
  both products taken into a zero accumulator, the changes of float format the identity on extended reals. A row of
  the result depends on the same row of D only, so each output column is that one function of the arrays the region
  found: the blocks are disjoint and fill the column.
-/
import proofs.«124152_j6511170421729_1_alg».proof.Proof.Gen.KernelIdeal.Frame
import proofs.«124152_j6511170421729_1_alg».proof.Proof.LibMatmul
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open scoped BigOperators

theorem zeroOff4 : (![0, 0] : Fin 2 → Nat) = fun _ => 0 := funext fun a => by fin_cases a <;> rfl

/-- One head at row r (and the column's only position u):
    logistic( Σ_k max( Σ_j D(r, j)·Wa(j, k) + Ba(0, k), 0 ) · Wb(k, u) + Bb(0, u) ). -/
def headRow (d : S50000x64.Idx → Ideal .f32) (wa : S64x64.Idx → Ideal .f32) (ba : S1x64.Idx → Ideal .f32)
    (wb : S64x1.Idx → Ideal .f32) (bb : S1x1.Idx → Ideal .f32) (r : Fin 50000) (u : Fin 1) : Ideal .f32 :=
  FloatOps.logistic (FloatOps.addf
    (∑ k : Fin 64, FloatOps.maximumf (FloatOps.addf (∑ j : Fin 64, d (ix2 r j) * wa (ix2 j k)) (ba (ix2 (0 : Fin 1) k)))
        (Scalar.ofBits .f32 0x00000000#32) * wb (ix2 k u))
    (bb (ix2 (0 : Fin 1) u)))

/-- A head's output column as one function of whole arrays. -/
def headVal (d : S50000x64.Idx → Ideal .f32) (wa : S64x64.Idx → Ideal .f32) (ba : S1x64.Idx → Ideal .f32)
    (wb : S64x1.Idx → Ideal .f32) (bb : S1x1.Idx → Ideal .f32) : S50000x1.Idx → Ideal .f32 :=
  fun i => headRow d wa ba wb bb (⟨(i 0).val, (i 0).isLt⟩ : Fin 50000) (⟨(i 1).val, (i 1).isLt⟩ : Fin 1)

/-- The same head over one grid point's blocks, at row p of the block. -/
def headBlk (x0 : Vec Ideal S10000x64 .f32) (wa : Vec Ideal S64x64 .f32) (ba : Vec Ideal S1x64 .f32)
    (wb : Vec Ideal S64x1 .f32) (bb : Vec Ideal S1x1 .f32) (p : Fin 10000) (u : Fin 1) : Ideal .f32 :=
  FloatOps.logistic (FloatOps.addf
    (∑ k : Fin 64, FloatOps.maximumf (FloatOps.addf (∑ j : Fin 64, x0 (ix2 p j) * wa (ix2 j k)) (ba (ix2 (0 : Fin 1) k)))
        (Scalar.ofBits .f32 0x00000000#32) * wb (ix2 k u))
    (bb (ix2 (0 : Fin 1) u)))

/-- A block's head at row p is the whole-array head at row r when the block's entries are the arrays' at row r. -/
theorem headBlk_congr (x0 : Vec Ideal S10000x64 .f32) (x1 : Vec Ideal S64x64 .f32) (x2 : Vec Ideal S1x64 .f32)
    (x5 : Vec Ideal S64x1 .f32) (x6 : Vec Ideal S1x1 .f32)
    (d : S50000x64.Idx → Ideal .f32) (wa : S64x64.Idx → Ideal .f32) (ba : S1x64.Idx → Ideal .f32)
    (wb : S64x1.Idx → Ideal .f32) (bb : S1x1.Idx → Ideal .f32) (r : Fin 50000) (p : Fin 10000) (u u' : Fin 1)
    (h0 : ∀ j : Fin 64, x0 (ix2 p j) = d (ix2 r j)) (h1 : ∀ j k : Fin 64, x1 (ix2 j k) = wa (ix2 j k))
    (h2 : ∀ k : Fin 64, x2 (ix2 (0 : Fin 1) k) = ba (ix2 (0 : Fin 1) k)) (h5 : ∀ k : Fin 64, x5 (ix2 k u) = wb (ix2 k u'))
    (h6 : x6 (ix2 (0 : Fin 1) u) = bb (ix2 (0 : Fin 1) u')) :
    headBlk x0 x1 x2 x5 x6 p u = headRow d wa ba wb bb r u' := by
  unfold headBlk headRow
  simp only [h0, h1, h2, h5, h6]

/-- The hidden layer as the body computes it: the block times Wa into a zero accumulator, plus the row Ba, clipped. -/
def hiddenBlk (x0 : Vec Ideal S10000x64 .f32) (wa : Vec Ideal S64x64 .f32) (ba : Vec Ideal S1x64 .f32) : FVec Ideal S10000x64 .f32 :=
  maximumf (addf (matmul dot_S10000x64_S64x64_S10000x64_1_0_0_1_n_n none (k4_pay3 (F := Ideal) x0) (truncf .bf16 wa bitsLt_bf16_f32)
      (constant S10000x64 .f32 0x00000000#32))
    (broadcastTo S10000x64 (shapeCast S1x64 ba shapeCasts_S1x64_S1x64) broadcasts_S1x64_S10000x64))
    (broadcast S10000x64 (Scalar.ofBits .f32 0x00000000#32))

/-- The features' block passes through a same-shape cast and a change of float format unchanged. -/
theorem pay3_id (x0 : Vec Ideal S10000x64 .f32) : k4_pay3 (F := Ideal) x0 = x0 := by
  unfold k4_pay3
  rw [shapeCast_self]
  rfl

theorem hiddenBlk_at (x0 : Vec Ideal S10000x64 .f32) (wa : Vec Ideal S64x64 .f32) (ba : Vec Ideal S1x64 .f32) (p : Fin 10000) (k : Fin 64) :
    hiddenBlk x0 wa ba (ix2 p k)
      = FloatOps.maximumf (FloatOps.addf (∑ j : Fin 64, x0 (ix2 p j) * wa (ix2 j k)) (ba (ix2 (0 : Fin 1) k))) (Scalar.ofBits .f32 0x00000000#32) := by
  have hmm : matmul dot_S10000x64_S64x64_S10000x64_1_0_0_1_n_n none (k4_pay3 (F := Ideal) x0) (truncf .bf16 wa bitsLt_bf16_f32)
      (constant S10000x64 .f32 0x00000000#32) (ix2 p k) = ∑ j : Fin 64, x0 (ix2 p j) * wa (ix2 j k) := by
    rw [pay3_id]
    exact Idealize.ShloMosaic.MatmulIdx.matmul_zero_ix2 (A := 10000) (K := 64) (B := 64) (φ₁ := .bf16) (φ₂ := .bf16)
      dot_S10000x64_S64x64_S10000x64_1_0_0_1_n_n.wf none x0 wa p k
  unfold hiddenBlk
  dsimp only [Idealize.ShloMosaic.maximumf, Idealize.ShloMosaic.addf, Idealize.ShloMosaic.broadcast]
  rw [shapeCast_self, broadcastTo_1b_ab_apply, hmm]

/-- The first head's stored value at row p of a block. -/
theorem pay_head0_at (x0 : Vec Ideal S10000x64 .f32) (x1 : Vec Ideal S64x64 .f32) (x2 : Vec Ideal S1x64 .f32)
    (x5 : Vec Ideal S64x1 .f32) (x6 : Vec Ideal S1x1 .f32) (p : Fin 10000) (u : Fin 1) :
    k4_pay1 (F := Ideal) (k4_pay4 x0 x1 x2 x5 x6) (ix2 p u) = headBlk x0 x1 x2 x5 x6 p u := by
  have hmm : matmul dot_S10000x64_S64x1_S10000x1_1_0_0_1_n_n none (truncf .bf16 (hiddenBlk x0 x1 x2) bitsLt_bf16_f32) (truncf .bf16 x5 bitsLt_bf16_f32)
      (constant S10000x1 .f32 0x00000000#32) (ix2 p u) = ∑ k : Fin 64, hiddenBlk x0 x1 x2 (ix2 p k) * x5 (ix2 k u) :=
    Idealize.ShloMosaic.MatmulIdx.matmul_zero_ix2 (A := 10000) (K := 64) (B := 1) (φ₁ := .bf16) (φ₂ := .bf16)
      dot_S10000x64_S64x1_S10000x1_1_0_0_1_n_n.wf none (hiddenBlk x0 x1 x2) x5 p u
  show FloatOps.logistic (FloatOps.addf
      (matmul dot_S10000x64_S64x1_S10000x1_1_0_0_1_n_n none (truncf .bf16 (hiddenBlk x0 x1 x2) bitsLt_bf16_f32) (truncf .bf16 x5 bitsLt_bf16_f32)
        (constant S10000x1 .f32 0x00000000#32) (ix2 p u))
      (broadcastTo S10000x1 (shapeCast S1x1 (x6 : S1x1.Idx → Ideal .f32) shapeCasts_S1x1_S1x1) broadcasts_S1x1_S10000x1 (ix2 p u))) = _
  rw [shapeCast_self, broadcastTo_1b_ab_apply, hmm]
  unfold headBlk
  simp only [hiddenBlk_at]

/-- The second head's stored value at row p of a block. -/
theorem pay_head1_at (x0 : Vec Ideal S10000x64 .f32) (x3 : Vec Ideal S64x64 .f32) (x4 : Vec Ideal S1x64 .f32)
    (x7 : Vec Ideal S64x1 .f32) (x8 : Vec Ideal S1x1 .f32) (p : Fin 10000) (u : Fin 1) :
    k4_pay2 (F := Ideal) (k4_pay5 x0 x3 x4 x7) (k4_pay6 x8) (ix2 p u) = headBlk x0 x3 x4 x7 x8 p u := by
  have hmm : matmul dot_S10000x64_S64x1_S10000x1_1_0_0_1_n_n none (truncf .bf16 (hiddenBlk x0 x3 x4) bitsLt_bf16_f32) (truncf .bf16 x7 bitsLt_bf16_f32)
      (constant S10000x1 .f32 0x00000000#32) (ix2 p u) = ∑ k : Fin 64, hiddenBlk x0 x3 x4 (ix2 p k) * x7 (ix2 k u) :=
    Idealize.ShloMosaic.MatmulIdx.matmul_zero_ix2 (A := 10000) (K := 64) (B := 1) (φ₁ := .bf16) (φ₂ := .bf16)
      dot_S10000x64_S64x1_S10000x1_1_0_0_1_n_n.wf none (hiddenBlk x0 x3 x4) x7 p u
  show FloatOps.logistic (FloatOps.addf
      (matmul dot_S10000x64_S64x1_S10000x1_1_0_0_1_n_n none (truncf .bf16 (hiddenBlk x0 x3 x4) bitsLt_bf16_f32) (truncf .bf16 x7 bitsLt_bf16_f32)
        (constant S10000x1 .f32 0x00000000#32) (ix2 p u))
      (broadcastTo S10000x1 (shapeCast S1x1 (x8 : S1x1.Idx → Ideal .f32) shapeCasts_S1x1_S1x1) broadcasts_S1x1_S10000x1 (ix2 p u))) = _
  rw [shapeCast_self, broadcastTo_1b_ab_apply, hmm]
  unfold headBlk
  simp only [hiddenBlk_at]

/-- The row-block index maps over the five grid points: D's and both outputs' row blocks move together. -/
theorem idx4_rows : ∀ t : Fin cfg4.N, win4_0.index t (0 : Fin 2) = win4_9.index t (0 : Fin 2)
    ∧ win4_0.index t (1 : Fin 2) = 0 ∧ win4_9.index t (1 : Fin 2) = 0
    ∧ win4_10.index t (0 : Fin 2) = win4_9.index t (0 : Fin 2) ∧ win4_10.index t (1 : Fin 2) = 0
    ∧ win4_9.index t (0 : Fin 2) ≤ 4 :=
  (by decide +kernel : ∀ t : Fin grid4.N, _)

/-- The eight small operands' blocks stay at the origin. -/
theorem idx4_resident : ∀ t : Fin cfg4.N, win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- Every one of the five row blocks is some grid point's. -/
theorem idx4_onto : ∀ q0 : Fin 5, ∃ t : Fin cfg4.N, win4_9.index t (0 : Fin 2) = q0.val :=
  (by decide +kernel : ∀ q0 : Fin 5, ∃ t : Fin grid4.N, win4_9.index t (0 : Fin 2) = q0.val)

set_option maxHeartbeats 6400000 in
set_option backward.isDefEq.respectTransparency.types false in
/-- What grid point t writes back to output window 9 is block t of the head's whole-array function. -/
theorem flushed4_9_eq (c : Dev nD) (t : Fin cfg4.N) :
    (dat4 V c).flushed 9 t = ((cfg4.win 9).blk t).view.read (Elt Ideal)
      (headVal (V c (Pipeline.arrRef spec4 0)) (V c (Pipeline.arrRef spec4 1)) (V c (Pipeline.arrRef spec4 2))
        (V c (Pipeline.arrRef spec4 5)) (V c (Pipeline.arrRef spec4 6))) := by
  show (cfg4.win 9).cut (grid4.coords t) ((dat4 V c).after 9 t) = _
  rw [after4_9]
  unfold out4_9
  rw [View.canon_unit_zero zeroOff4]
  simp only [View.ld_unit_zero (S := S10000x64) zeroOff4, View.ld_unit_zero (S := S64x64) zeroOff4,
    View.ld_unit_zero (S := S1x64) zeroOff4, View.ld_unit_zero (S := S64x1) zeroOff4, View.ld_unit_zero (S := S1x1) zeroOff4]
  obtain ⟨e0, e1, e2, e3, e4, e5⟩ := idx4_rows t
  obtain ⟨f10, f11, f20, f21, f30, f31, f40, f41, f50, f51, f60, f61, f70, f71, f80, f81⟩ := idx4_resident t
  funext j
  obtain ⟨p, u, rfl⟩ : ∃ (p : Fin 10000) (u : Fin 1), j = ix2 p u := ⟨j 0, j 1, eq_ix2 j⟩
  show k4_pay1 (F := Ideal) (k4_pay4 (iblk4 V c 0 t) (iblk4 V c 1 t) (iblk4 V c 2 t) (iblk4 V c 5 t) (iblk4 V c 6 t)) (ix2 p u) = _
  rw [pay_head0_at]
  refine headBlk_congr _ _ _ _ _ _ _ _ _ _ (⟨((((cfg4.win 9).blk t).view.emb (ix2 p u)) 0).val, ((((cfg4.win 9).blk t).view.emb (ix2 p u)) 0).isLt⟩ : Fin 50000) p u
    (⟨((((cfg4.win 9).blk t).view.emb (ix2 p u)) 1).val, ((((cfg4.win 9).blk t).view.emb (ix2 p u)) 1).isLt⟩ : Fin 1)
    (fun j => ?_) (fun j k => ?_) (fun k => ?_) (fun k => ?_) ?_
  · show V c (Pipeline.arrRef spec4 0) (((cfg4.win 0).blk t).view.emb (ix2 p j)) = _
    refine congrArg (V c (Pipeline.arrRef spec4 0)) (funext fun a => Fin.ext ?_)
    match a with
    | ⟨0, _⟩ => show win4_0.index t (0 : Fin 2) * 10000 + 1 * p.val = win4_9.index t (0 : Fin 2) * 10000 + 1 * p.val; omega
    | ⟨1, _⟩ => show win4_0.index t (1 : Fin 2) * 64 + 1 * j.val = j.val; omega
  · show V c (Pipeline.arrRef spec4 1) (((cfg4.win 1).blk t).view.emb (ix2 j k)) = _
    refine congrArg (V c (Pipeline.arrRef spec4 1)) (funext fun a => Fin.ext ?_)
    match a with
    | ⟨0, _⟩ => show win4_1.index t (0 : Fin 2) * 64 + 1 * j.val = j.val; omega
    | ⟨1, _⟩ => show win4_1.index t (1 : Fin 2) * 64 + 1 * k.val = k.val; omega
  · show V c (Pipeline.arrRef spec4 2) (((cfg4.win 2).blk t).view.emb (ix2 (0 : Fin 1) k)) = _
    refine congrArg (V c (Pipeline.arrRef spec4 2)) (funext fun a => Fin.ext ?_)
    match a with
    | ⟨0, _⟩ => show win4_2.index t (0 : Fin 2) * 1 + 1 * 0 = 0; omega
    | ⟨1, _⟩ => show win4_2.index t (1 : Fin 2) * 64 + 1 * k.val = k.val; omega
  · show V c (Pipeline.arrRef spec4 5) (((cfg4.win 5).blk t).view.emb (ix2 k u)) = _
    refine congrArg (V c (Pipeline.arrRef spec4 5)) (funext fun a => Fin.ext ?_)
    match a with
    | ⟨0, _⟩ => show win4_5.index t (0 : Fin 2) * 64 + 1 * k.val = k.val; omega
    | ⟨1, _⟩ => show win4_5.index t (1 : Fin 2) * 1 + 1 * u.val = win4_9.index t (1 : Fin 2) * 1 + 1 * u.val; omega
  · show V c (Pipeline.arrRef spec4 6) (((cfg4.win 6).blk t).view.emb (ix2 (0 : Fin 1) u)) = _
    refine congrArg (V c (Pipeline.arrRef spec4 6)) (funext fun a => Fin.ext ?_)
    match a with
    | ⟨0, _⟩ => show win4_6.index t (0 : Fin 2) * 1 + 1 * 0 = 0; omega
    | ⟨1, _⟩ => show win4_6.index t (1 : Fin 2) * 1 + 1 * u.val = win4_9.index t (1 : Fin 2) * 1 + 1 * u.val; omega

/-- Row r lies in grid point t's block of window 9 iff t's block index is r / 10000. -/
theorem mem_blk4_9 (t : Fin cfg4.N) (i : S50000x1.Idx) :
    i ∈ ((cfg4.win 9).blk t).view.set ↔ ∀ a : Fin 2, win4_9.index t a * S10000x1.size a ≤ (i a).val ∧ (i a).val < win4_9.index t a * S10000x1.size a + S10000x1.size a := by
  show i ∈ ((View.whole main_v79_0).slice (win4_9.rect t)).set ↔ _
  rw [View.set_slice_whole, Rect.mem_set_unit]
  exact Iff.rfl

/-- The five blocks of window 9 fill its array. -/
theorem cover4_9_all (i : S50000x1.Idx) : ∃ t : Fin cfg4.N, (cfg4.win 9).flush t = true ∧ i ∈ ((cfg4.win 9).blk t).view.set := by
  have hi0 : (i 0).val < 50000 := (i 0).isLt
  have hi1 : (i 1).val < 1 := (i 1).isLt
  obtain ⟨t, ht⟩ := idx4_onto ⟨(i 0).val / 10000, by omega⟩
  have q0 : win4_9.index t (0 : Fin 2) = (i 0).val / 10000 := ht
  obtain ⟨e0, e1, e2, e3, e4, e5⟩ := idx4_rows t
  refine ⟨t, flush4_9 t, ?_⟩
  rw [mem_blk4_9]
  intro a
  match a with
  | ⟨0, _⟩ => show win4_9.index t (0 : Fin 2) * 10000 ≤ (i 0).val ∧ (i 0).val < win4_9.index t (0 : Fin 2) * 10000 + 10000; omega
  | ⟨1, _⟩ => show win4_9.index t (1 : Fin 2) * 1 ≤ (i 1).val ∧ (i 1).val < win4_9.index t (1 : Fin 2) * 1 + 1; omega

/-- Output window 9's array after the region, as one function of the arrays the region found. -/
theorem arr4_9 (c : Dev nD) : (dat4 V c).arrAt 9 cfg4.N
    = headVal (V c (Pipeline.arrRef spec4 0)) (V c (Pipeline.arrRef spec4 1)) (V c (Pipeline.arrRef spec4 2))
        (V c (Pipeline.arrRef spec4 5)) (V c (Pipeline.arrRef spec4 6)) :=
  (dat4 V c).arrAt_eq_of_cover 9 _ (fun t _ => flushed4_9_eq V c t) (cover4_9_all)

set_option maxHeartbeats 6400000 in
set_option backward.isDefEq.respectTransparency.types false in
/-- What grid point t writes back to output window 10 is block t of the head's whole-array function. -/
theorem flushed4_10_eq (c : Dev nD) (t : Fin cfg4.N) :
    (dat4 V c).flushed 10 t = ((cfg4.win 10).blk t).view.read (Elt Ideal)
      (headVal (V c (Pipeline.arrRef spec4 0)) (V c (Pipeline.arrRef spec4 3)) (V c (Pipeline.arrRef spec4 4))
        (V c (Pipeline.arrRef spec4 7)) (V c (Pipeline.arrRef spec4 8))) := by
  show (cfg4.win 10).cut (grid4.coords t) ((dat4 V c).after 10 t) = _
  rw [after4_10]
  unfold out4_10
  rw [View.canon_unit_zero zeroOff4]
  simp only [View.ld_unit_zero (S := S10000x64) zeroOff4, View.ld_unit_zero (S := S64x64) zeroOff4,
    View.ld_unit_zero (S := S1x64) zeroOff4, View.ld_unit_zero (S := S64x1) zeroOff4, View.ld_unit_zero (S := S1x1) zeroOff4]
  obtain ⟨e0, e1, e2, e3, e4, e5⟩ := idx4_rows t
  obtain ⟨f10, f11, f20, f21, f30, f31, f40, f41, f50, f51, f60, f61, f70, f71, f80, f81⟩ := idx4_resident t
  funext j
  obtain ⟨p, u, rfl⟩ : ∃ (p : Fin 10000) (u : Fin 1), j = ix2 p u := ⟨j 0, j 1, eq_ix2 j⟩
  show k4_pay2 (F := Ideal) (k4_pay5 (iblk4 V c 0 t) (iblk4 V c 3 t) (iblk4 V c 4 t) (iblk4 V c 7 t)) (k4_pay6 (iblk4 V c 8 t)) (ix2 p u) = _
  rw [pay_head1_at]
  refine headBlk_congr _ _ _ _ _ _ _ _ _ _ (⟨((((cfg4.win 10).blk t).view.emb (ix2 p u)) 0).val, ((((cfg4.win 10).blk t).view.emb (ix2 p u)) 0).isLt⟩ : Fin 50000) p u
    (⟨((((cfg4.win 10).blk t).view.emb (ix2 p u)) 1).val, ((((cfg4.win 10).blk t).view.emb (ix2 p u)) 1).isLt⟩ : Fin 1)
    (fun j => ?_) (fun j k => ?_) (fun k => ?_) (fun k => ?_) ?_
  · show V c (Pipeline.arrRef spec4 0) (((cfg4.win 0).blk t).view.emb (ix2 p j)) = _
    refine congrArg (V c (Pipeline.arrRef spec4 0)) (funext fun a => Fin.ext ?_)
    match a with
    | ⟨0, _⟩ => show win4_0.index t (0 : Fin 2) * 10000 + 1 * p.val = win4_10.index t (0 : Fin 2) * 10000 + 1 * p.val; omega
    | ⟨1, _⟩ => show win4_0.index t (1 : Fin 2) * 64 + 1 * j.val = j.val; omega
  · show V c (Pipeline.arrRef spec4 3) (((cfg4.win 3).blk t).view.emb (ix2 j k)) = _
    refine congrArg (V c (Pipeline.arrRef spec4 3)) (funext fun a => Fin.ext ?_)
    match a with
    | ⟨0, _⟩ => show win4_3.index t (0 : Fin 2) * 64 + 1 * j.val = j.val; omega
    | ⟨1, _⟩ => show win4_3.index t (1 : Fin 2) * 64 + 1 * k.val = k.val; omega
  · show V c (Pipeline.arrRef spec4 4) (((cfg4.win 4).blk t).view.emb (ix2 (0 : Fin 1) k)) = _
    refine congrArg (V c (Pipeline.arrRef spec4 4)) (funext fun a => Fin.ext ?_)
    match a with
    | ⟨0, _⟩ => show win4_4.index t (0 : Fin 2) * 1 + 1 * 0 = 0; omega
    | ⟨1, _⟩ => show win4_4.index t (1 : Fin 2) * 64 + 1 * k.val = k.val; omega
  · show V c (Pipeline.arrRef spec4 7) (((cfg4.win 7).blk t).view.emb (ix2 k u)) = _
    refine congrArg (V c (Pipeline.arrRef spec4 7)) (funext fun a => Fin.ext ?_)
    match a with
    | ⟨0, _⟩ => show win4_7.index t (0 : Fin 2) * 64 + 1 * k.val = k.val; omega
    | ⟨1, _⟩ => show win4_7.index t (1 : Fin 2) * 1 + 1 * u.val = win4_10.index t (1 : Fin 2) * 1 + 1 * u.val; omega
  · show V c (Pipeline.arrRef spec4 8) (((cfg4.win 8).blk t).view.emb (ix2 (0 : Fin 1) u)) = _
    refine congrArg (V c (Pipeline.arrRef spec4 8)) (funext fun a => Fin.ext ?_)
    match a with
    | ⟨0, _⟩ => show win4_8.index t (0 : Fin 2) * 1 + 1 * 0 = 0; omega
    | ⟨1, _⟩ => show win4_8.index t (1 : Fin 2) * 1 + 1 * u.val = win4_10.index t (1 : Fin 2) * 1 + 1 * u.val; omega

/-- Row r lies in grid point t's block of window 10 iff t's block index is r / 10000. -/
theorem mem_blk4_10 (t : Fin cfg4.N) (i : S50000x1.Idx) :
    i ∈ ((cfg4.win 10).blk t).view.set ↔ ∀ a : Fin 2, win4_10.index t a * S10000x1.size a ≤ (i a).val ∧ (i a).val < win4_10.index t a * S10000x1.size a + S10000x1.size a := by
  show i ∈ ((View.whole main_v79_1).slice (win4_10.rect t)).set ↔ _
  rw [View.set_slice_whole, Rect.mem_set_unit]
  exact Iff.rfl

/-- The five blocks of window 10 fill its array. -/
theorem cover4_10_all (i : S50000x1.Idx) : ∃ t : Fin cfg4.N, (cfg4.win 10).flush t = true ∧ i ∈ ((cfg4.win 10).blk t).view.set := by
  have hi0 : (i 0).val < 50000 := (i 0).isLt
  have hi1 : (i 1).val < 1 := (i 1).isLt
  obtain ⟨t, ht⟩ := idx4_onto ⟨(i 0).val / 10000, by omega⟩
  have q0 : win4_9.index t (0 : Fin 2) = (i 0).val / 10000 := ht
  obtain ⟨e0, e1, e2, e3, e4, e5⟩ := idx4_rows t
  refine ⟨t, flush4_10 t, ?_⟩
  rw [mem_blk4_10]
  intro a
  match a with
  | ⟨0, _⟩ => show win4_10.index t (0 : Fin 2) * 10000 ≤ (i 0).val ∧ (i 0).val < win4_10.index t (0 : Fin 2) * 10000 + 10000; omega
  | ⟨1, _⟩ => show win4_10.index t (1 : Fin 2) * 1 ≤ (i 1).val ∧ (i 1).val < win4_10.index t (1 : Fin 2) * 1 + 1; omega

/-- Output window 10's array after the region, as one function of the arrays the region found. -/
theorem arr4_10 (c : Dev nD) : (dat4 V c).arrAt 10 cfg4.N
    = headVal (V c (Pipeline.arrRef spec4 0)) (V c (Pipeline.arrRef spec4 3)) (V c (Pipeline.arrRef spec4 4))
        (V c (Pipeline.arrRef spec4 7)) (V c (Pipeline.arrRef spec4 8)) :=
  (dat4 V c).arrAt_eq_of_cover 10 _ (fun t _ => flushed4_10_eq V c t) (cover4_10_all)

end Cert.KernelIdeal.Blocks

end
-- ==== Proof.Bridge2.lean ====
/-
  The two heads, kernel against reference.

  Both programs feed the second layer's features D to two heads. A head is a [64, 64] matrix Wa with bias Ba, clipped at
  zero, then a [64, 1] column Wb with bias Bb, then the logistic function. The kernel computes each head in one region,
  storing a [50000, 1] column that a host reshape then flattens; the reference flattens first and spells the logistic
  function as 1 / (1 + exp(-x)) with host operations. On extended reals the logistic function IS that expression
  (the float word 0x3F800000 is the number one), so entry r of both is
      1 / (1 + exp(-( Σ_k max( Σ_j D(r, j)·Wa(j, k) + Ba(k), 0 ) · Wb(k, 0) + Bb(0) ))).
-/
import proofs.«124152_j6511170421729_1_alg».proof.Proof.Gen.KernelIdeal.Frame
import proofs.«124152_j6511170421729_1_alg».proof.Proof.Gen.ReferenceIdeal.Read
import Idealize.ShloMosaic.Lib.StableHlo.Run
import Idealize.ShloMosaic.PureOps.Ideal
import proofs.«124152_j6511170421729_1_alg».proof.Proof.Bridge1
import proofs.«124152_j6511170421729_1_alg».proof.Proof.Carry
import proofs.«124152_j6511170421729_1_alg».proof.Proof.Region4
import Idealize.ShloMosaic.Lib.ValueLayout
import Idealize.ShloMosaic.Lib.Pipeline.Value
import Idealize.ShloMosaic.Lib.IdealHost
import proofs.«124152_j6511170421729_1_alg».proof.Proof.LibHostDot

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

open Idealize.ShloMosaic.ValueIdx
open scoped BigOperators

/-- The float word 0x3F800000 is the number one. -/
theorem one_word : (FloatOps.ofBits .f32 0x3F800000#32 : Ideal .f32) = 1 := by
  show Ideal.ofBits .f32 0x3F800000#32 = 1
  simp [Ideal.ofBits, Ideal.ieee, -EReal.coe_mul]; norm_num

/-- Entry r of a head, in the reference's spelling. -/
def headRef (D : S50000x64.Idx → Ideal .f32) (wa : S64x64.Idx → Ideal .f32) (ba : S64.Idx → Ideal .f32)
    (wb : S64x1.Idx → Ideal .f32) (bb : S1.Idx → Ideal .f32) (r : Fin 50000) : Ideal .f32 :=
  FloatOps.hostDivf (FloatOps.ofBits .f32 0x3F800000#32) (FloatOps.addf (FloatOps.ofBits .f32 0x3F800000#32)
    (FloatOps.hostUnary .exp (FloatOps.hostNegf (FloatOps.addf
      (∑ k : Fin 64, FloatOps.maximumf (FloatOps.addf (∑ j : Fin 64, D (ix2 r j) * wa (ix2 j k)) (ba (ix1 k)))
          (FloatOps.ofBits .f32 0x00000000#32) * wb (ix2 k (0 : Fin 1)))
      (bb (ix1 (0 : Fin 1)))))))

/-- The kernel's head, its biases reshaped from vectors, is the reference's spelling: the logistic function is
    1 / (1 + exp(-x)). -/
theorem headRow_ref (D : S50000x64.Idx → Ideal .f32) (wa : S64x64.Idx → Ideal .f32) (ba : S64.Idx → Ideal .f32)
    (wb : S64x1.Idx → Ideal .f32) (bb : S1.Idx → Ideal .f32) (r : Fin 50000) :
    Cert.KernelIdeal.Blocks.headRow D wa (shapeCast S1x64 ba shapeCasts_S64_S1x64) wb (shapeCast S1x1 bb shapeCasts_S1_S1x1) r (0 : Fin 1)
      = headRef D wa ba wb bb r := by
  unfold Cert.KernelIdeal.Blocks.headRow headRef
  simp only [shapeCast_a_1a_apply]
  rw [one_word]
  rfl

/-- A [50000, 1] column flattened reads, at r, the column at (r, 0). -/
theorem flat_col {α : Type} (y : S50000x1.Idx → α) (r : Fin 50000) :
    shapeCast S50000 y shapeCasts_S50000x1_S50000 (ix1 r) = y (ix2 r (0 : Fin 1)) :=
  shapeCast_apply y _ _ _ (by
    rw [Shape.rowMajor_val_two, Shape.rowMajor_val_one]
    show r.val * 1 + 0 = r.val
    omega)

/-- A bias vector spread along rows, as the reference spells it ([64] to [1, 64] to [50000, 64]), read at (r, k). -/
theorem bcast_row (b : S64.Idx → Ideal .f32) (r : Fin 50000) (k : Fin 64) :
    broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 b) (ix2 r k) = b (ix1 k) :=
  (broadcastInDim_apply _ Cert.ReferenceIdeal.Gen.bcast_S1x64_S50000x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])).trans
  (broadcastInDim_apply _ Cert.ReferenceIdeal.Gen.bcast_S64_S1x64_1 b (ix2 (0 : Fin 1) k) (ix1 k) (fun a => match a with
    | ⟨0, _⟩ => by show k.val = if (64 : Nat) = 1 then 0 else k.val; rw [if_neg (by decide)]))

/-- A one-entry bias spread along a column ([1] to [1, 1] to [50000, 1]), read at (r, 0). -/
theorem bcast_ent (b : S1.Idx → Ideal .f32) (r : Fin 50000) :
    broadcastInDim Cert.ReferenceIdeal.S50000x1 ![0, 1] Cert.ReferenceIdeal.Gen.bcast_S1x1_S50000x1_0_1 (broadcastInDim Cert.ReferenceIdeal.S1x1 ![1] Cert.ReferenceIdeal.Gen.bcast_S1_S1x1_1 b) (ix2 r (0 : Fin 1)) = b (ix1 (0 : Fin 1)) :=
  (broadcastInDim_apply _ Cert.ReferenceIdeal.Gen.bcast_S1x1_S50000x1_0_1 _ (ix2 r (0 : Fin 1)) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else 0; rw [if_pos rfl])).trans
  (broadcastInDim_apply _ Cert.ReferenceIdeal.Gen.bcast_S1_S1x1_1 b (ix2 (0 : Fin 1) (0 : Fin 1)) (ix1 (0 : Fin 1)) (fun a => match a with
    | ⟨0, _⟩ => by show 0 = if (1 : Nat) = 1 then 0 else 0; rw [if_pos rfl]))

/-- The hidden layer in the reference's operations: dot product, bias spread along rows, maximum with a zero splat. -/
def hiddenRef (D : S50000x64.Idx → Ideal .f32) (wa : S64x64.Idx → Ideal .f32) (ba : S64.Idx → Ideal .f32) : S50000x64.Idx → Ideal .f32 :=
  maximumf (addf (Host.dotGeneral (F := Ideal) Cert.ReferenceIdeal.dot_S50000x64_S64x64_S50000x64_1_0_0_1_n_n none D wa)
      (broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 ba)))
    (broadcastInDim Cert.ReferenceIdeal.S50000x64 ![] Cert.ReferenceIdeal.Gen.bcast_S_S50000x64 (constant (F := Ideal) Cert.ReferenceIdeal.S_ .f32 0x00000000#32))

theorem hiddenRef_at (D : S50000x64.Idx → Ideal .f32) (wa : S64x64.Idx → Ideal .f32) (ba : S64.Idx → Ideal .f32) (r : Fin 50000) (k : Fin 64) :
    hiddenRef D wa ba (ix2 r k)
      = FloatOps.maximumf (FloatOps.addf (∑ j : Fin 64, D (ix2 r j) * wa (ix2 j k)) (ba (ix1 k))) (FloatOps.ofBits .f32 0x00000000#32) := by
  unfold hiddenRef
  dsimp only [Idealize.ShloMosaic.maximumf, Idealize.ShloMosaic.addf]
  rw [Idealize.ShloMosaic.MatmulIdx.host_dot_ix2 (A := 50000) (K := 64) (B := 64) Cert.ReferenceIdeal.dot_S50000x64_S64x64_S50000x64_1_0_0_1_n_n.wf Cert.ReferenceIdeal.dot_S50000x64_S64x64_S50000x64_1_0_0_1_n_n rfl none D wa r k,
    bcast_row, broadcastInDim_scalar_apply]
  rfl

/-- A whole head in the reference's operations: the second dot product, the bias, the flattening, and
    1 / (1 + exp(-x)) spelt with splats of the word for one. -/
def headArr (D : S50000x64.Idx → Ideal .f32) (wa : S64x64.Idx → Ideal .f32) (ba : S64.Idx → Ideal .f32)
    (wb : S64x1.Idx → Ideal .f32) (bb : S1.Idx → Ideal .f32) : S50000.Idx → Ideal .f32 :=
  Host.divf (broadcastInDim Cert.ReferenceIdeal.S50000 ![] Cert.ReferenceIdeal.Gen.bcast_S_S50000 (constant (F := Ideal) Cert.ReferenceIdeal.S_ .f32 0x3F800000#32))
    (addf (broadcastInDim Cert.ReferenceIdeal.S50000 ![] Cert.ReferenceIdeal.Gen.bcast_S_S50000 (constant (F := Ideal) Cert.ReferenceIdeal.S_ .f32 0x3F800000#32))
      (Host.exp (Host.negf (shapeCast Cert.ReferenceIdeal.S50000
        (addf (Host.dotGeneral (F := Ideal) Cert.ReferenceIdeal.dot_S50000x64_S64x1_S50000x1_1_0_0_1_n_n none (hiddenRef D wa ba) wb)
          (broadcastInDim Cert.ReferenceIdeal.S50000x1 ![0, 1] Cert.ReferenceIdeal.Gen.bcast_S1x1_S50000x1_0_1 (broadcastInDim Cert.ReferenceIdeal.S1x1 ![1] Cert.ReferenceIdeal.Gen.bcast_S1_S1x1_1 bb)))
        Cert.ReferenceIdeal.Gen.shapeCasts_S50000x1_S50000))))

theorem headArr_at (D : S50000x64.Idx → Ideal .f32) (wa : S64x64.Idx → Ideal .f32) (ba : S64.Idx → Ideal .f32)
    (wb : S64x1.Idx → Ideal .f32) (bb : S1.Idx → Ideal .f32) (r : Fin 50000) :
    headArr D wa ba wb bb (ix1 r) = headRef D wa ba wb bb r := by
  unfold headArr headRef
  dsimp only [Host.divf, Idealize.ShloMosaic.addf, Host.exp, Host.negf]
  rw [broadcastInDim_scalar_apply, flat_col]
  dsimp only [Idealize.ShloMosaic.addf]
  rw [Idealize.ShloMosaic.MatmulIdx.host_dot_ix2 (A := 50000) (K := 64) (B := 1) Cert.ReferenceIdeal.dot_S50000x64_S64x1_S50000x1_1_0_0_1_n_n.wf Cert.ReferenceIdeal.dot_S50000x64_S64x1_S50000x1_1_0_0_1_n_n rfl none (hiddenRef D wa ba) wb r (0 : Fin 1),
    bcast_ent]
  simp only [hiddenRef_at]
  rfl
/-- The features at the heads' region: no operation between the second layer and the heads writes them. -/
theorem d_at8 (c : Dev nD) : W8 (F := Ideal) m ρ c (Proc.devRef .tc main_v74) = Cert.ReferenceIdeal.Read.val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  show StableHlo.after hostOps4 (W7 (F := Ideal) m ρ c) (Proc.devRef .tc main_v74) = _
  dsimp only [hostOps4]
  after_results_simp
  exact d_at7 m ρ c

/-! ## Head 0 -/

theorem brow_h0_at8 (c : Dev nD) : W8 (F := Ideal) m ρ c (Proc.devRef .tc main_v75) = shapeCast S1x64 (m ((c : Thread nD τ).loc main_arg9)) shapeCasts_S64_S1x64 := by
  show StableHlo.after hostOps4 (W7 (F := Ideal) m ρ c) (Proc.devRef .tc main_v75) = _
  dsimp only [hostOps4]
  after_results_simp
  rw [Cert.KernelIdeal.Carry.W7_arg9]
  try rfl

theorem bent_h0_at8 (c : Dev nD) : W8 (F := Ideal) m ρ c (Proc.devRef .tc main_v77) = shapeCast S1x1 (m ((c : Thread nD τ).loc main_arg13)) shapeCasts_S1_S1x1 := by
  show StableHlo.after hostOps4 (W7 (F := Ideal) m ρ c) (Proc.devRef .tc main_v77) = _
  dsimp only [hostOps4]
  after_results_simp
  rw [Cert.KernelIdeal.Carry.W7_arg13]
  try rfl

/-- The head's column after the region: the head's function of the features and the head's parameters. -/
theorem col_h0_at9 (c : Dev nD) : W9 (F := Ideal) m ρ c (Proc.devRef .tc main_v79_0)
    = Cert.KernelIdeal.Blocks.headVal (Cert.ReferenceIdeal.Read.val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg8)) (shapeCast S1x64 (m ((c : Thread nD τ).loc main_arg9)) shapeCasts_S64_S1x64) (m ((c : Thread nD τ).loc main_arg12)) (shapeCast S1x1 (m ((c : Thread nD τ).loc main_arg13)) shapeCasts_S1_S1x1) := by
  refine ((W9_arr (F := Ideal) m ρ c 9).trans (Cert.KernelIdeal.Blocks.arr4_9 (V8 (F := Ideal) m ρ) c)).trans ?_
  show Cert.KernelIdeal.Blocks.headVal (W8 (F := Ideal) m ρ c (Proc.devRef .tc main_v74)) (W8 (F := Ideal) m ρ c (Proc.devRef .tc main_arg8))
      (W8 (F := Ideal) m ρ c (Proc.devRef .tc main_v75)) (W8 (F := Ideal) m ρ c (Proc.devRef .tc main_arg12))
      (W8 (F := Ideal) m ρ c (Proc.devRef .tc main_v77)) = _
  rw [d_at8, Cert.KernelIdeal.Carry.W8_arg8, brow_h0_at8, Cert.KernelIdeal.Carry.W8_arg12, bent_h0_at8]

/-- The reference's head stage is the head in its operations, of the features' stage and the head's parameters. -/
theorem ref_h0 (c : Dev nD) : Cert.ReferenceIdeal.Read.val_main_v99 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13))
    = headArr (Cert.ReferenceIdeal.Read.val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg12)) (m ((c : Thread nD τ).loc main_arg13)) := by
  unfold Cert.ReferenceIdeal.Read.val_main_v99 Cert.ReferenceIdeal.Read.val_main_v98 Cert.ReferenceIdeal.Read.val_main_cst_16 Cert.ReferenceIdeal.Read.val_main_v97 Cert.ReferenceIdeal.Read.val_main_v96 Cert.ReferenceIdeal.Read.val_main_cst_15 Cert.ReferenceIdeal.Read.val_main_v95 Cert.ReferenceIdeal.Read.val_main_v94 Cert.ReferenceIdeal.Read.val_main_v93 Cert.ReferenceIdeal.Read.val_main_v92 Cert.ReferenceIdeal.Read.val_main_v89 Cert.ReferenceIdeal.Read.val_main_v91 Cert.ReferenceIdeal.Read.val_main_v90 Cert.ReferenceIdeal.Read.val_main_v83 Cert.ReferenceIdeal.Read.val_main_v82 Cert.ReferenceIdeal.Read.val_main_v79 Cert.ReferenceIdeal.Read.val_main_v81 Cert.ReferenceIdeal.Read.val_main_v80 Cert.ReferenceIdeal.Read.val_main_call2_v0 Cert.ReferenceIdeal.Read.val_main_call2_cst headArr hiddenRef
  rfl

/-- The head's column, flattened, is the reference's head. -/
theorem flat_h0 (c : Dev nD) : shapeCast S50000 (Cert.KernelIdeal.Blocks.headVal (Cert.ReferenceIdeal.Read.val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg8)) (shapeCast S1x64 (m ((c : Thread nD τ).loc main_arg9)) shapeCasts_S64_S1x64) (m ((c : Thread nD τ).loc main_arg12)) (shapeCast S1x1 (m ((c : Thread nD τ).loc main_arg13)) shapeCasts_S1_S1x1)) shapeCasts_S50000x1_S50000
    = Cert.ReferenceIdeal.Read.val_main_v99 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  rw [ref_h0]
  funext i
  obtain ⟨r, rfl⟩ : ∃ r : Fin 50000, i = ix1 r := ⟨i 0, eq_ix1 i⟩
  rw [flat_col, headArr_at]
  exact headRow_ref _ _ _ _ _ r

/-! ## Head 1 -/

theorem brow_h1_at8 (c : Dev nD) : W8 (F := Ideal) m ρ c (Proc.devRef .tc main_v76) = shapeCast S1x64 (m ((c : Thread nD τ).loc main_arg11)) shapeCasts_S64_S1x64 := by
  show StableHlo.after hostOps4 (W7 (F := Ideal) m ρ c) (Proc.devRef .tc main_v76) = _
  dsimp only [hostOps4]
  after_results_simp
  rw [Cert.KernelIdeal.Carry.W7_arg11]
  try rfl

theorem bent_h1_at8 (c : Dev nD) : W8 (F := Ideal) m ρ c (Proc.devRef .tc main_v78) = shapeCast S1x1 (m ((c : Thread nD τ).loc main_arg15)) shapeCasts_S1_S1x1 := by
  show StableHlo.after hostOps4 (W7 (F := Ideal) m ρ c) (Proc.devRef .tc main_v78) = _
  dsimp only [hostOps4]
  after_results_simp
  rw [Cert.KernelIdeal.Carry.W7_arg15]
  try rfl

/-- The head's column after the region: the head's function of the features and the head's parameters. -/
theorem col_h1_at9 (c : Dev nD) : W9 (F := Ideal) m ρ c (Proc.devRef .tc main_v79_1)
    = Cert.KernelIdeal.Blocks.headVal (Cert.ReferenceIdeal.Read.val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg10)) (shapeCast S1x64 (m ((c : Thread nD τ).loc main_arg11)) shapeCasts_S64_S1x64) (m ((c : Thread nD τ).loc main_arg14)) (shapeCast S1x1 (m ((c : Thread nD τ).loc main_arg15)) shapeCasts_S1_S1x1) := by
  refine ((W9_arr (F := Ideal) m ρ c 10).trans (Cert.KernelIdeal.Blocks.arr4_10 (V8 (F := Ideal) m ρ) c)).trans ?_
  show Cert.KernelIdeal.Blocks.headVal (W8 (F := Ideal) m ρ c (Proc.devRef .tc main_v74)) (W8 (F := Ideal) m ρ c (Proc.devRef .tc main_arg10))
      (W8 (F := Ideal) m ρ c (Proc.devRef .tc main_v76)) (W8 (F := Ideal) m ρ c (Proc.devRef .tc main_arg14))
      (W8 (F := Ideal) m ρ c (Proc.devRef .tc main_v78)) = _
  rw [d_at8, Cert.KernelIdeal.Carry.W8_arg10, brow_h1_at8, Cert.KernelIdeal.Carry.W8_arg14, bent_h1_at8]

/-- The reference's head stage is the head in its operations, of the features' stage and the head's parameters. -/
theorem ref_h1 (c : Dev nD) : Cert.ReferenceIdeal.Read.val_main_v110 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15))
    = headArr (Cert.ReferenceIdeal.Read.val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg10)) (m ((c : Thread nD τ).loc main_arg11)) (m ((c : Thread nD τ).loc main_arg14)) (m ((c : Thread nD τ).loc main_arg15)) := by
  unfold Cert.ReferenceIdeal.Read.val_main_v110 Cert.ReferenceIdeal.Read.val_main_v109 Cert.ReferenceIdeal.Read.val_main_cst_18 Cert.ReferenceIdeal.Read.val_main_v108 Cert.ReferenceIdeal.Read.val_main_v107 Cert.ReferenceIdeal.Read.val_main_cst_17 Cert.ReferenceIdeal.Read.val_main_v106 Cert.ReferenceIdeal.Read.val_main_v105 Cert.ReferenceIdeal.Read.val_main_v104 Cert.ReferenceIdeal.Read.val_main_v103 Cert.ReferenceIdeal.Read.val_main_v100 Cert.ReferenceIdeal.Read.val_main_v102 Cert.ReferenceIdeal.Read.val_main_v101 Cert.ReferenceIdeal.Read.val_main_v88 Cert.ReferenceIdeal.Read.val_main_v87 Cert.ReferenceIdeal.Read.val_main_v84 Cert.ReferenceIdeal.Read.val_main_v86 Cert.ReferenceIdeal.Read.val_main_v85 Cert.ReferenceIdeal.Read.val_main_call3_v0 Cert.ReferenceIdeal.Read.val_main_call3_cst headArr hiddenRef
  rfl

/-- The head's column, flattened, is the reference's head. -/
theorem flat_h1 (c : Dev nD) : shapeCast S50000 (Cert.KernelIdeal.Blocks.headVal (Cert.ReferenceIdeal.Read.val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg10)) (shapeCast S1x64 (m ((c : Thread nD τ).loc main_arg11)) shapeCasts_S64_S1x64) (m ((c : Thread nD τ).loc main_arg14)) (shapeCast S1x1 (m ((c : Thread nD τ).loc main_arg15)) shapeCasts_S1_S1x1)) shapeCasts_S50000x1_S50000
    = Cert.ReferenceIdeal.Read.val_main_v110 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) := by
  rw [ref_h1]
  funext i
  obtain ⟨r, rfl⟩ : ∃ r : Fin 50000, i = ix1 r := ⟨i 0, eq_ix1 i⟩
  rw [flat_col, headArr_at]
  exact headRow_ref _ _ _ _ _ r

end Cert.Bridge

end
-- ==== Proof.Bridge3.lean ====
/-
  The selection at the patients, kernel against reference.

  Both programs end with the same host operations: each head's flattened column is gathered at the patient indices (a
  negative index first moved up by 50000), and the treatment flag (treatment > 0) selects between the two gathered
  values. Applied to equal head columns and the same integer arguments they give equal results; so each of the
  kernel's three result buffers holds, after its last segment, the reference's stage of the launch arguments.
-/
import proofs.«124152_j6511170421729_1_alg».proof.Proof.Gen.KernelIdeal.Frame
import proofs.«124152_j6511170421729_1_alg».proof.Proof.Gen.ReferenceIdeal.Read
import Idealize.ShloMosaic.Lib.StableHlo.Run
import Idealize.ShloMosaic.PureOps.Ideal
import proofs.«124152_j6511170421729_1_alg».proof.Proof.Bridge2
import proofs.«124152_j6511170421729_1_alg».proof.Proof.Carry

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The control head's value at each patient. -/
theorem y0p_at10 (c : Dev nD) : W10 (F := Ideal) m ρ c (Proc.devRef .tc main_v88) = Cert.ReferenceIdeal.Read.val_main_v117 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  show StableHlo.after hostOps5 (W9 (F := Ideal) m ρ c) (Proc.devRef .tc main_v88) = _
  dsimp only [hostOps5]
  after_results_simp
  rw [col_h0_at9, Cert.KernelIdeal.Carry.W9_arg2]
  unfold Cert.ReferenceIdeal.Read.val_main_v117 Cert.ReferenceIdeal.Read.val_main_v116 Cert.ReferenceIdeal.Read.val_main_v115 Cert.ReferenceIdeal.Read.val_main_v114 Cert.ReferenceIdeal.Read.val_main_v113 Cert.ReferenceIdeal.Read.val_main_c_20 Cert.ReferenceIdeal.Read.val_main_v112 Cert.ReferenceIdeal.Read.val_main_v111 Cert.ReferenceIdeal.Read.val_main_c_19
  rw [← flat_h0 m c]
  rfl

/-- The treated head's value at each patient. -/
theorem y1p_at10 (c : Dev nD) : W10 (F := Ideal) m ρ c (Proc.devRef .tc main_v95) = Cert.ReferenceIdeal.Read.val_main_v124 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) := by
  show StableHlo.after hostOps5 (W9 (F := Ideal) m ρ c) (Proc.devRef .tc main_v95) = _
  dsimp only [hostOps5]
  after_results_simp
  rw [col_h1_at9, Cert.KernelIdeal.Carry.W9_arg2]
  unfold Cert.ReferenceIdeal.Read.val_main_v124 Cert.ReferenceIdeal.Read.val_main_v123 Cert.ReferenceIdeal.Read.val_main_v122 Cert.ReferenceIdeal.Read.val_main_v121 Cert.ReferenceIdeal.Read.val_main_v120 Cert.ReferenceIdeal.Read.val_main_c_22 Cert.ReferenceIdeal.Read.val_main_v119 Cert.ReferenceIdeal.Read.val_main_v118 Cert.ReferenceIdeal.Read.val_main_c_21
  rw [← flat_h1 m c]
  rfl

/-- The treatment flag: treatment > 0. -/
theorem flag_at10 (c : Dev nD) : W10 (F := Ideal) m ρ c (Proc.devRef .tc main_v97) = Cert.ReferenceIdeal.Read.val_main_v126 (F := Ideal) (m ((c : Thread nD τ).loc main_arg3)) := by
  show StableHlo.after hostOps5 (W9 (F := Ideal) m ρ c) (Proc.devRef .tc main_v97) = _
  dsimp only [hostOps5]
  after_results_simp
  rw [Cert.KernelIdeal.Carry.W9_arg3]
  unfold Cert.ReferenceIdeal.Read.val_main_v126 Cert.ReferenceIdeal.Read.val_main_v125 Cert.ReferenceIdeal.Read.val_main_c_23
  rfl

/-- The last host stretch is one selection: whatever the buffers hold before it, afterwards the first result holds the
    selection of the second and third by the flag. -/
theorem where_read (W : Valuation τ sig (Elt Ideal)) :
    StableHlo.after (hostOps5_1 (F := Ideal)) W (Proc.devRef .tc main_v98)
      = select (W (Proc.devRef .tc main_v97)) (W (Proc.devRef .tc main_v95)) (W (Proc.devRef .tc main_v88)) := by
  dsimp only [hostOps5_1]
  after_results_simp <;> rfl

/-- It writes neither of the two gathered values. -/
theorem where_keep95 (W : Valuation τ sig (Elt Ideal)) :
    StableHlo.after (hostOps5_1 (F := Ideal)) W (Proc.devRef .tc main_v95) = W (Proc.devRef .tc main_v95) := by
  dsimp only [hostOps5_1]
  after_results_simp <;> rfl

theorem where_keep88 (W : Valuation τ sig (Elt Ideal)) :
    StableHlo.after (hostOps5_1 (F := Ideal)) W (Proc.devRef .tc main_v88) = W (Proc.devRef .tc main_v88) := by
  dsimp only [hostOps5_1]
  after_results_simp <;> rfl

/-- The selected value at each patient: the first result. -/
theorem y_at11 (c : Dev nD) : W11 (F := Ideal) m ρ c (Proc.devRef .tc main_v98) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (where_read (W10 (F := Ideal) m ρ c)).trans ?_
  rw [flag_at10, y1p_at10, y0p_at10]
  unfold Cert.ReferenceIdeal.Read.val_main_v127
  rfl

/-- The second result: the last segment does not write it. -/
theorem y1p_at11 (c : Dev nD) : W11 (F := Ideal) m ρ c (Proc.devRef .tc main_v95) = Cert.ReferenceIdeal.Read.val_main_v124 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) :=
  (where_keep95 (W10 (F := Ideal) m ρ c)).trans (y1p_at10 m ρ c)

/-- The third result: the last segment does not write it. -/
theorem y0p_at11 (c : Dev nD) : W11 (F := Ideal) m ρ c (Proc.devRef .tc main_v88) = Cert.ReferenceIdeal.Read.val_main_v117 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) :=
  (where_keep88 (W10 (F := Ideal) m ρ c)).trans (y0p_at10 m ρ c)

end Cert.Bridge

end
-- ==== Proof.lean ====
/-
  A two-layer graph convolution with two logistic heads, as five tiled kernels between host operations, against the
  same network written with plain host operations: the two programs end with equal results on extended reals.

  The network. From the edge index E the source list is row 0 followed by a self-loop per node, the target list row 1
  followed by the same; deg(v) counts v in the target list and dinv = deg^(-1/2). A layer maps features X to
      max( A(X·W) + b, 0 ),    A(H)(v, ·) = Σ over edges e with target v of H(source e, ·) · dinv(source e) · dinv(target e).
  Two layers give features D; head h is logistic( max(D·Wa_h + Ba_h, 0)·Wb_h + Bb_h ); the results are the two heads'
  values gathered at the patients and, per patient, the one the treatment flag selects.

  The kernel computes X·W, the bias-and-clip, and both heads in regions of five row blocks of 10000; everything else
  (edge lists, degrees, aggregation, gathers, selection) is the same host operations in both programs. On extended
  reals a change of float format is the identity, a product into a zero accumulator is the host's dot product, a row
  block of a row-wise function is the restriction of the whole function, and the logistic function is 1 / (1 + exp(-x));
  none of these needs the inputs to be finite, so the precondition is never opened.

  The proof: the kernel's run names each result at the contents of the last of the boundaries between its eleven
  segments (Proof/KernelRun); each region's output array is one function of its input arrays (Proof/Region0 … Region4);
  buffer by buffer the boundaries' contents are the reference's stages of the launch arguments (Proof/Bridge0 … Bridge3,
  the arguments themselves by Proof/Carry); and the reference's run ends at those stages.
-/
import proofs.«124152_j6511170421729_1_alg».proof.Defs
import proofs.«124152_j6511170421729_1_alg».proof.Proof.Gen.Kernel
import proofs.«124152_j6511170421729_1_alg».proof.Proof.Gen.Kernel.Skeleton
import proofs.«124152_j6511170421729_1_alg».proof.Proof.Gen.Kernel.Launch
import proofs.«124152_j6511170421729_1_alg».proof.Proof.Gen.Kernel.Points
import proofs.«124152_j6511170421729_1_alg».proof.Proof.Gen.Kernel.Frame
import proofs.«124152_j6511170421729_1_alg».proof.Proof.Gen.KernelIdeal
import proofs.«124152_j6511170421729_1_alg».proof.Proof.Gen.KernelIdeal.Skeleton
import proofs.«124152_j6511170421729_1_alg».proof.Proof.Gen.KernelIdeal.Launch
import proofs.«124152_j6511170421729_1_alg».proof.Proof.Gen.KernelIdeal.Points
import proofs.«124152_j6511170421729_1_alg».proof.Proof.Gen.KernelIdeal.Frame
import proofs.«124152_j6511170421729_1_alg».proof.Proof.Gen.ReferenceIdeal
import proofs.«124152_j6511170421729_1_alg».proof.Proof.Gen.ReferenceIdeal.Run
import proofs.«124152_j6511170421729_1_alg».proof.Proof.Gen.ReferenceIdeal.Read
import proofs.«124152_j6511170421729_1_alg».proof.Proof.Gen.Pre_finite_inputs
import proofs.«124152_j6511170421729_1_alg».proof.Proof.KernelRun
import proofs.«124152_j6511170421729_1_alg».proof.Proof.Bridge3
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_k [Cert.Kernel.Facts] [Cert.Pre_finite_inputs.Facts] : Cert.frame_Kernel := fun m ρ _ => Cert.Kernel.Gen.frame m ρ

/-- The idealized kernel runs and leaves its arguments as launched. -/
theorem frame_ki [Cert.KernelIdeal.Facts] [Cert.Pre_finite_inputs.Facts] : Cert.frame_KernelIdeal := fun m ρ _ => Cert.KernelIdeal.Gen.frame m ρ

/-- The reference runs and leaves its arguments as launched: its run with the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with the reference's three stages of those arguments:
    the selected value, the treated head's value and the control head's value at each patient. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v117 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Named.run_named (F := Ideal) m ρ)
    obtain ⟨h0, h1, h2, hargs⟩ := h c
    exact ⟨h0.trans (Cert.Bridge.y_at11 m ρ c), h1.trans (Cert.Bridge.y1p_at11 m ρ c), h2.trans (Cert.Bridge.y0p_at11 m ρ c), hargs⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7, a8, a9, a10, a11, a12, a13, a14, a15⟩ := hagree c
    refine ⟨?_, ?_, ?_, hargs⟩
    · rw [h0, Cert.ReferenceIdeal.Read.val_main_v127_eq, a0, a1, a2, a3, a4, a5, a6, a7, a8, a9, a10, a11, a12, a13, a14, a15]
    · rw [h1, Cert.ReferenceIdeal.Read.val_main_v124_eq, a0, a1, a2, a4, a5, a6, a7, a10, a11, a14, a15]
    · rw [h2, Cert.ReferenceIdeal.Read.val_main_v117_eq, a0, a1, a2, a4, a5, a6, a7, a8, a9, a12, a13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
